-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024 : Shape := ⟨2, ![256, 1024]⟩
abbrev S1024x3200 : Shape := ⟨2, ![1024, 3200]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1024x3200 : S_.BroadcastsInDim S1024x3200 (![] : Fin 0 → Fin S1024x3200.rank)
  reducesTo_S1024x3200_S_d0_1 : S1024x3200.ReducesTo [0, 1] S_

variable [Facts]

def fn {F : FTy → Type} [FloatOps F] (main_arg0 : FVec F S256x1024 .f32) (main_arg1 : FVec F S1024x3200 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1024x3200 .f32 := Host.absf main_arg1
  let main_cst_0 : FVec F S_ .f32 := constant S_ .f32 0x7F800000#32
  let main_v5 : FVec F S1024x3200 .f32 := broadcastInDim S1024x3200 ![] bcast_S_S1024x3200 main_cst_0
  let main_v6 : IVec S1024x3200 1 := cmpf .olt main_v4 main_v5
  let main_c_1 : IVec S_ 1 := constantI S_ 1 1#1
  let main_v7 : IVec S_ 1 := (fun x v => Host.reduce IntOp.andi x v reducesTo_S1024x3200_S_d0_1 h_S_) main_v6 main_c_1
  let main_v8 : IVec S_ 1 := andi main_v3 main_v7
  main_v8
-- ==== Kernel.lean ====
abbrev S256x1024 : Shape := ⟨2, ![256, 1024]⟩
abbrev S1024x3200 : Shape := ⟨2, ![1024, 3200]⟩
abbrev S1024x64x50 : Shape := ⟨3, ![1024, 64, 50]⟩
abbrev S64x50x1024 : Shape := ⟨3, ![64, 50, 1024]⟩
abbrev S1024x256 : Shape := ⟨2, ![1024, 256]⟩
abbrev S256x64 : Shape := ⟨2, ![256, 64]⟩
abbrev S128x64 : Shape := ⟨2, ![128, 64]⟩
abbrev S50x256 : Shape := ⟨2, ![50, 256]⟩
abbrev S1x50x1024 : Shape := ⟨3, ![1, 50, 1024]⟩
abbrev S50x1024 : Shape := ⟨2, ![50, 1024]⟩
abbrev S50x128 : Shape := ⟨2, ![50, 128]⟩
abbrev S50x128x1 : Shape := ⟨3, ![50, 128, 1]⟩
abbrev S50x1x256 : Shape := ⟨3, ![50, 1, 256]⟩
abbrev S50x128x256 : Shape := ⟨3, ![50, 128, 256]⟩
abbrev S128x256 : Shape := ⟨2, ![128, 256]⟩
abbrev S128 : Shape := ⟨1, ![128]⟩
abbrev S128x1 : Shape := ⟨2, ![128, 1]⟩
abbrev S256x1088 : Shape := ⟨2, ![256, 1088]⟩

abbrev nBuf : Space → Nat
  | .hbm => 7
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1024x3200, .f32⟩
  | .hbm, ⟨2, _⟩ => ⟨S1024x64x50, .f32⟩
  | .hbm, ⟨3, _⟩ => ⟨S64x50x1024, .f32⟩
  | .hbm, ⟨4, _⟩ => ⟨S1024x256, .f32⟩
  | .hbm, ⟨5, _⟩ => ⟨S256x64, .f32⟩
  | .hbm, ⟨6, _⟩ => ⟨S256x1088, .f32⟩
  | .local _ .vmem, ⟨0, _⟩ => ⟨S64x50x1024, .f32⟩
  | .local _ .vmem, ⟨1, _⟩ => ⟨S1024x256, .f32⟩
  | .local _ .vmem, ⟨2, _⟩ => ⟨S128x64, .f32⟩
  | .local _ .vmem, ⟨3, _⟩ => ⟨S128x64, .f32⟩
  | .local _ .vmem, ⟨4, _⟩ => ⟨S50x256, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![2], ![false]⟩

def k0_mult1 (i : grid0.Coords) : BitVec 32 :=
  let arg0 : BitVec 32 := BitVec.ofNat 32 (i 0).val
  let c128_i32 : BitVec 32 := 128#32
  let v0 : BitVec 32 := Scalar.muli arg0 c128_i32
  v0
@[reducible] def k0_t1_loop : Scf.Loop 32 :=
  let c0_i32 : BitVec 32 := 0#32
  let c64_i32 : BitVec 32 := 64#32
  let v2 : BitVec 32 := Scalar.addi c0_i32 c64_i32
  let c1_i32 : BitVec 32 := 1#32
  ⟨c0_i32, v2, c1_i32⟩
def k0_off1 (k0_t1 : Fin k0_t1_loop.trips) : Fin 3 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v3 : BitVec 32 := Scalar.muli arg5 c1_i32_1
  let v4 : BitVec 32 := Scalar.addi c0_i32_2 v3
  let v5 : Index := Scalar.indexCast v4
  let c0 : Index := 0#32
  let c0_3 : Index := 0#32
  ![v5.toNat, 0, 0]
def k0_off2 (i : grid0.Coords) : Fin 2 → Nat :=
  let c0_8 : Index := 0#32
  let arg0 : BitVec 32 := BitVec.ofNat 32 (i 0).val
  let c128_i32 : BitVec 32 := 128#32
  let v0 : BitVec 32 := Scalar.muli arg0 c128_i32
  let v1 : BitVec 32 := v0
  let v14 : Index := Scalar.indexCast v1
  ![0, v14.toNat]
def k0_off3 (k0_t1 : Fin k0_t1_loop.trips) : Fin 2 → Nat :=
  let c0_13 : Index := 0#32
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v3 : BitVec 32 := Scalar.muli arg5 c1_i32_1
  let v4 : BitVec 32 := Scalar.addi c0_i32_2 v3
  let v30 : Index := Scalar.indexCast v4
  ![0, v30.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x50x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1024x3200_S1024x64x50 : S1024x3200.ShapeCasts S1024x64x50
  transposes_S1024x64x50_S64x50x1024_1_2_0 : S1024x64x50.Transposes [1, 2, 0] S64x50x1024
  transposes_S256x1024_S1024x256_1_0 : S256x1024.Transposes [1, 0] S1024x256
  h_S1x50x1024 : 0 < S1x50x1024.numel
  shapeCasts_S1x50x1024_S50x1024 : S1x50x1024.ShapeCasts S50x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S50x256_S50x256_0_0 : ∀ a, (![0, 0] : Fin 2 → Nat) a + S50x256.size a ≤ S50x256.size a
  h_S50x256 : 0 < S50x256.numel
  shapeCasts_S50x256_S50x256 : S50x256.ShapeCasts S50x256
  h_S50x128 : 0 < S50x128.numel
  shapeCasts_S50x128_S50x128x1 : S50x128.ShapeCasts S50x128x1
  shapeCasts_S50x256_S50x1x256 : S50x256.ShapeCasts S50x1x256
  broadcasts_S50x128x1_S50x128x256 : S50x128x1.Broadcasts S50x128x256
  broadcasts_S50x1x256_S50x128x256 : S50x1x256.Broadcasts S50x128x256
  reduces_S50x128x256_S128x256 : S50x128x256.Reduces [0] S128x256
  reduces_S128x256_S128 : S128x256.Reduces [1] S128
  shapeCasts_S128_S128x1 : S128.ShapeCasts S128x1
  h_S128x1 : 0 < S128x1.numel
  concatenates_S256x1024_S256x64_S256x1088_d1 : Shape.Concatenates [S256x1024, S256x64] S256x1088 1
  dot_S50x1024_S1024x256_S50x256_1_0_0_1_n_n_wf : DotDims.WF S50x1024 S1024x256 S50x256 [1] [0] [0] [1] [] []
  hrank0 : 0 < grid0.rank
  k0_mult1_dvd : ∀ i : grid0.Coords, 128 ∣ (k0_mult1 i).toNat
  k0_t1_ok : k0_t1_loop.OK
  k0_off1_inb : ∀ k0_t1 : Fin k0_t1_loop.trips, ∀ a, (k0_off1 k0_t1) a + S1x50x1024.size a ≤ S64x50x1024.size a
  k0_off2_inb : ∀ i : grid0.Coords, ∀ a, (k0_off2 i) a + S50x128.size a ≤ S50x256.size a
  k0_off3_inb : ∀ k0_t1 : Fin k0_t1_loop.trips, ∀ a, (k0_off3 k0_t1) a + S128x1.size a ≤ S128x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x50x1024.size a ≤ S64x50x1024.size a
  hwx0_0 : ∀ i : grid0.Coords, EltTy.bits .f32 = 32 ∨ (Rect.block (s := S64x50x1024) S64x50x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S256x64.size a
  hwx0_2 : ∀ i : grid0.Coords, EltTy.bits .f32 = 32 ∨ (Rect.block (s := S256x64) S128x64.size (cc0_transform_2 i) (hinb0_2 i)).WholeWords (EltTy.packing .f32)

variable [Facts₀]

def dot_S50x1024_S1024x256_S50x256_1_0_0_1_n_n : DotDims S50x1024 S1024x256 S50x256 where
  lhsContracting := [1]
  rhsContracting := [0]
  lhsNonContracting := [0]
  rhsNonContracting := [1]
  lhsBatch := []
  rhsBatch := []
  wf := dot_S50x1024_S1024x256_S50x256_1_0_0_1_n_n_wf

abbrev win0_0 : Pipeline.Window sig grid0 :=
  Pipeline.Window.ofSpec (Memref.whole main_v1) S64x50x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x1024 : Shape := ⟨2, ![256, 1024]⟩
abbrev S1024x3200 : Shape := ⟨2, ![1024, 3200]⟩
abbrev S256x3200 : Shape := ⟨2, ![256, 3200]⟩
abbrev S256x64x50 : Shape := ⟨3, ![256, 64, 50]⟩
abbrev S256x1x64x50 : Shape := ⟨4, ![256, 1, 64, 50]⟩
abbrev S1x256x64x50 : Shape := ⟨4, ![1, 256, 64, 50]⟩
abbrev S256x256x64x50 : Shape := ⟨4, ![256, 256, 64, 50]⟩
abbrev S_ : Shape := ⟨0, ![]⟩
abbrev S256x256x64 : Shape := ⟨3, ![256, 256, 64]⟩
abbrev S256x64 : Shape := ⟨2, ![256, 64]⟩
abbrev S256x1088 : Shape := ⟨2, ![256, 1088]⟩

abbrev nBuf : Space → Nat
  | .hbm => 20
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x3200, .f32⟩
  | .hbm, ⟨2, _⟩ => ⟨S256x3200, .f32⟩
  | .hbm, ⟨3, _⟩ => ⟨S256x64x50, .f32⟩
  | .hbm, ⟨4, _⟩ => ⟨S256x1x64x50, .f32⟩
  | .hbm, ⟨5, _⟩ => ⟨S1x256x64x50, .f32⟩
  | .hbm, ⟨6, _⟩ => ⟨S256x256x64x50, .f32⟩
  | .hbm, ⟨7, _⟩ => ⟨S256x256x64x50, .f32⟩
  | .hbm, ⟨8, _⟩ => ⟨S256x256x64x50, .f32⟩
  | .hbm, ⟨9, _⟩ => ⟨S256x256x64x50, .f32⟩
  | .hbm, ⟨10, _⟩ => ⟨S_, .f32⟩
  | .hbm, ⟨11, _⟩ => ⟨S256x256x64, .f32⟩
  | .hbm, ⟨12, _⟩ => ⟨S256x256x64, .f32⟩
  | .hbm, ⟨13, _⟩ => ⟨S256x256x64, .f32⟩
  | .hbm, ⟨14, _⟩ => ⟨S_, .f32⟩
  | .hbm, ⟨15, _⟩ => ⟨S256x64, .f32⟩
  | .hbm, ⟨16, _⟩ => ⟨S_, .f32⟩
  | .hbm, ⟨17, _⟩ => ⟨S256x64, .f32⟩
  | .hbm, ⟨18, _⟩ => ⟨S256x64, .f32⟩
  | .hbm, ⟨19, _⟩ => ⟨S256x1088, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  shapeCasts_S256x3200_S256x64x50 : S256x3200.ShapeCasts S256x64x50
  bcast_S256x64x50_S256x1x64x50_0_2_3 : S256x64x50.BroadcastsInDim S256x1x64x50 (![0, 2, 3] : Fin 3 → Fin S256x1x64x50.rank)
  bcast_S256x64x50_S1x256x64x50_1_2_3 : S256x64x50.BroadcastsInDim S1x256x64x50 (![1, 2, 3] : Fin 3 → Fin S1x256x64x50.rank)
  bcast_S256x1x64x50_S256x256x64x50_0_1_2_3 : S256x1x64x50.BroadcastsInDim S256x256x64x50 (![0, 1, 2, 3] : Fin 4 → Fin S256x256x64x50.rank)
  bcast_S1x256x64x50_S256x256x64x50_0_1_2_3 : S1x256x64x50.BroadcastsInDim S256x256x64x50 (![0, 1, 2, 3] : Fin 4 → Fin S256x256x64x50.rank)
  reducesTo_S256x256x64x50_S256x256x64_d3 : S256x256x64x50.ReducesTo [3] S256x256x64
  h_S_ : 0 < S_.numel
  reducesTo_S256x256x64_S256x64_d1 : S256x256x64.ReducesTo [1] S256x64
  bcast_S_S256x64 : S_.BroadcastsInDim S256x64 (![] : Fin 0 → Fin S256x64.rank)
  concatenates_S256x1024_S256x64_S256x1088_d1 : Shape.Concatenates [S256x1024, S256x64] S256x1088 1
  dot_S256x1024_S1024x3200_S256x3200_1_0_0_1_n_n_wf : DotDims.WF S256x1024 S1024x3200 S256x3200 [1] [0] [0] [1] [] []

variable [Facts₀]

def dot_S256x1024_S1024x3200_S256x3200_1_0_0_1_n_n : DotDims S256x1024 S1024x3200 S256x3200 where
  lhsContracting := [1]
  rhsContracting := [0]
  lhsNonContracting := [0]
  rhsNonContracting := [1]
  lhsBatch := []
  rhsBatch := []
  wf := dot_S256x1024_S1024x3200_S256x3200_1_0_0_1_n_n_wf

class Facts : Prop extends Facts₀ where

variable [Facts]
-- ==== Proof.BodyBits.lean ====
/-
  The kernel body at one grid point, for any float instance.

  The body is one counted loop of 64 trips. Trip `o` loads slab `o` of the first operand (a `[50, 1024]` matrix)
  and the whole second operand, multiplies them into a `[50, 256]` product, stores the product over the whole
  scratch buffer, loads back from the scratch the 128 columns that belong to the grid point's query rows,
  computes from the product and that slice one `[128, 1]` column, and stores it as column `o` of the output
  block. So the scratch never carries anything from one trip to the next (every trip overwrites all of it
  before reading), and after the 64 trips the output block is, column by column, a fixed function of the two
  operand blocks: `colPay i x0 x1 o` below. The loop's invariant says exactly that: before trip `k` the output
  buffer holds columns `0 … k-1` written over whatever it held at entry, the operands are untouched, and the
  scratch holds something.
-/
import proofs.«175558_j42073499631717_2_alg».proof.Proof.Gen.Kernel.Skeleton
import proofs.«175558_j42073499631717_2_alg».proof.Proof.Gen.Kernel.Frame
import Idealize.ShloMosaic.Lib.Exec
import Idealize.ShloMosaic.Lib.Tactic
import Idealize.ShloMosaic.Lib.Pipeline.Kit
import Idealize.ShloMosaic.Lib.Pipeline.Value
import Idealize.ShloMosaic.Lib.Pipeline.FrameBody

set_option maxRecDepth 16384
set_option maxHeartbeats 4000000

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One trip's values, as functions of the two operand blocks -/

/-- Slab `k` of the first operand: the `[1, 50, 1024]` box at offset `k` along the leading axis. -/
def slab (x0 : Vec F S64x50x1024 .f32) (k : Fin k0_t1_loop.trips) : Vec F S1x50x1024 .f32 :=
  View.ld (Val := Elt F) x0 (Rect.unit (s := S64x50x1024) (k0_off1 k) S1x50x1024.size (k0_off1_inb k))

/-- The whole second operand, as the load through the zero-offset whole-shape box reads it. -/
def keys (x1 : Vec F S1024x256 .f32) : Vec F S1024x256 .f32 :=
  View.ld (Val := Elt F) x1 (Rect.unit (s := S1024x256) ![0, 0] S1024x256.size inb_S1024x256_S1024x256_0_0)

/-- The 128 columns of a `[50, 256]` matrix that belong to grid point `i`'s query rows. -/
def qcols (i : grid0.Coords) (w : Vec F S50x256 .f32) : Vec F S50x128 .f32 :=
  View.ld (Val := Elt F) w (Rect.unit (s := S50x256) (k0_off2 i) S50x128.size (k0_off2_inb i))

/-- The column trip `k` stores: the body's arithmetic on slab `k`, the second operand, and the query columns
    of their product. -/
def colPay (i : grid0.Coords) (x0 : Vec F S64x50x1024 .f32) (x1 : Vec F S1024x256 .f32) (k : Fin k0_t1_loop.trips) :
    Vec F S128x1 .f32 :=
  k0_pay3 (slab x0 k) (keys x1) (qcols i (k0_pay2 (slab x0 k) (keys x1)))

/-- Trip `k`'s store into the output block: column `k`. -/
def piece (i : grid0.Coords) (x0 : Vec F S64x50x1024 .f32) (x1 : Vec F S1024x256 .f32) (k : Fin k0_t1_loop.trips) :
    View.Piece (Elt F) S128x64 .f32 :=
  ⟨Rect.unit (s := S128x64) (k0_off3 k) S128x1.size (k0_off3_inb k), colPay i x0 x1 k⟩

/-- The stores of the trips before `n`, the last first. -/
def pcs (i : grid0.Coords) (x0 : Vec F S64x50x1024 .f32) (x1 : Vec F S1024x256 .f32) :
    ℕ → List (View.Piece (Elt F) S128x64 .f32)
  | 0 => []
  | n + 1 => if h : n < k0_t1_loop.trips then piece i x0 x1 ⟨n, h⟩ :: pcs i x0 x1 n else pcs i x0 x1 n

theorem pcs_succ (i : grid0.Coords) (x0 : Vec F S64x50x1024 .f32) (x1 : Vec F S1024x256 .f32) (k : Fin k0_t1_loop.trips) :
    pcs i x0 x1 (k.val + 1) = piece i x0 x1 k :: pcs i x0 x1 k.val := by
  rw [pcs, dif_pos k.isLt]

theorem hz2 : (![0, 0] : Fin 2 → Nat) = fun _ => 0 := by
  funext a; match a with | ⟨0, _⟩ => rfl | ⟨1, _⟩ => rfl

/-! ## One trip -/

/-- A load of the query columns from a scratch whose last store covered it whole reads the query columns of what
    was stored, whatever the scratch held before. -/
theorem read_back (i : grid0.Coords) (arg4 : Memref sig .tc .vmem S50x256 .f32) (w : Vec F S50x256 .f32) :
    View.readAt (Elt F) arg4.view (Rect.unit (s := S50x256) (k0_off2 i) S50x128.size (k0_off2_inb i)).toLoadRect
        (arg4.view.writes (Elt F) arg4.view.junk
          [(⟨Rect.unit (s := S50x256) ![0, 0] S50x256.size inb_S50x256_S50x256_0_0, w⟩ : View.Piece (Elt F) S50x256 .f32)])
      = qcols i w := by
  rw [View.readAt_writes_junk_eq_canon, View.canon_unit_zero hz2]; rfl

/-- One trip from the operands at contents reading `x0`, `x1`, the output buffer at `f3` and the scratch at
    anything: the operands are as they were, the output buffer has column `k` written over `f3`, the scratch
    holds something. -/
theorem trip_sound (𝒱 : Variants) (c : Dev nD) (bd : Option 𝒱.V) (E : Set ℕ) (i : grid0.Coords)
    (arg1 : Memref sig .tc .vmem S64x50x1024 .f32) (harg1 : arg1.IsWhole) (arg2 : Memref sig .tc .vmem S1024x256 .f32) (harg2 : arg2.IsWhole)
    (arg3 : Memref sig .tc .vmem S128x64 .f32) (harg3 : arg3.IsWhole) (arg4 : Memref sig .tc .vmem S50x256 .f32) (harg4 : arg4.IsWhole)
    (x0 : Vec F S64x50x1024 .f32) (x1 : Vec F S1024x256 .f32)
    (X1 : BufTy.Contents (Elt F) arg1.view.ty) (h1 : arg1.view.read (Elt F) X1 = x0)
    (X2 : BufTy.Contents (Elt F) arg2.view.ty) (h2 : arg2.view.read (Elt F) X2 = x1)
    (k : Fin k0_t1_loop.trips) (f3 : BufTy.Contents (Elt F) arg3.view.ty) :
    (iprop((arg1.view.loc (c : Thread nD τ) ↦[arg1.view.set]{fullShare} X1) ∗ (arg2.view.loc (c : Thread nD τ) ↦[arg2.view.set]{fullShare} X2)
        ∗ (arg3.view.loc (c : Thread nD τ) ↦[arg3.view.set]{fullShare} f3)
        ∗ (∃ f4, arg4.view.loc (c : Thread nD τ) ↦[arg4.view.set]{fullShare} f4)) : sProp 𝕄)
      ⊢ wp frame (wpE (defs₀ (F := F)) 𝒱 (c : Thread nD τ) bd) E (k0_t1_body (F := F) i arg1 harg1 arg2 harg2 arg3 harg3 arg4 harg4 k PUnit.unit)
          (fun _ => iprop((arg1.view.loc (c : Thread nD τ) ↦[arg1.view.set]{fullShare} X1) ∗ (arg2.view.loc (c : Thread nD τ) ↦[arg2.view.set]{fullShare} X2)
            ∗ (∃ f3', (arg3.view.loc (c : Thread nD τ) ↦[arg3.view.set]{fullShare} f3') ∗ ⌜f3' = arg3.view.writes (Elt F) f3 [piece i x0 x1 k]⌝)
            ∗ (∃ f4, arg4.view.loc (c : Thread nD τ) ↦[arg4.view.set]{fullShare} f4))) := by
  have hk : k.val < 64 := Nat.lt_of_lt_of_le k.isLt k0_t1_abs.2.1
  have e1 : View.readAt (Elt F) arg1.view (Rect.unit (s := S64x50x1024) (k0_off1 k) S1x50x1024.size (k0_off1_inb k)).toLoadRect X1 = slab x0 k := by
    rw [← h1]; rfl
  have e2 : View.readAt (Elt F) arg2.view (Rect.unit (s := S1024x256) ![0, 0] S1024x256.size inb_S1024x256_S1024x256_0_0).toLoadRect X2 = keys x1 := by
    rw [← h2]; rfl
  unfold k0_t1_body
  iintro ⟨HR_arg1, HR_arg2, HW_arg3, ⟨%f4, HW_arg4⟩⟩
  sl_exec
  sl_step
  isplitl [HR_arg1]; · iexact HR_arg1
  isplitl [HR_arg2]; · iexact HR_arg2
  isplitl [HW_arg3]
  · iexists _; isplitl [HW_arg3]; · iexact HW_arg3
    ipureintro
    refine congrArg (fun p => arg3.view.writes (Elt F) f3
      [(⟨Rect.unit (s := S128x64) (k0_off3 k) S128x1.size (k0_off3_inb k), p⟩ : View.Piece (Elt F) S128x64 .f32)]) ?_
    sl_unfold_run_names
    rw [read_back]
    rfl
  iexists _; iexact HW_arg4

/-! ## The loop and the whole body -/

/-- Before trip `n`: the operands at their contents, the output buffer with the columns of the trips before `n`
    written over its contents `G3` at entry, the scratch at anything. -/
def loopInv (c : Dev nD) (i : grid0.Coords)
    (arg1 : Memref sig .tc .vmem S64x50x1024 .f32) (arg2 : Memref sig .tc .vmem S1024x256 .f32)
    (arg3 : Memref sig .tc .vmem S128x64 .f32) (arg4 : Memref sig .tc .vmem S50x256 .f32)
    (x0 : Vec F S64x50x1024 .f32) (x1 : Vec F S1024x256 .f32)
    (X1 : BufTy.Contents (Elt F) arg1.view.ty) (X2 : BufTy.Contents (Elt F) arg2.view.ty) (G3 : BufTy.Contents (Elt F) arg3.view.ty)
    (n : ℕ) (_ : Unit) : sProp 𝕄 :=
  iprop((arg1.view.loc (c : Thread nD τ) ↦[arg1.view.set]{fullShare} X1) ∗ (arg2.view.loc (c : Thread nD τ) ↦[arg2.view.set]{fullShare} X2)
    ∗ (∃ f3, (arg3.view.loc (c : Thread nD τ) ↦[arg3.view.set]{fullShare} f3) ∗ ⌜f3 = arg3.view.writes (Elt F) G3 (pcs i x0 x1 n)⌝)
    ∗ (∃ f4, arg4.view.loc (c : Thread nD τ) ↦[arg4.view.set]{fullShare} f4))

/-- The body on any whole staging memrefs: from the operands' buffers reading `x0`, `x1`, the output's and the
    scratch at anything, it runs to the continuation with the operands as they were, the output buffer with all 64
    columns written over what it held, and the scratch at something. -/
theorem body_run (c : Dev nD) (i : grid0.Coords)
    (arg1 : Memref sig .tc .vmem S64x50x1024 .f32) (harg1 : arg1.IsWhole) (arg2 : Memref sig .tc .vmem S1024x256 .f32) (harg2 : arg2.IsWhole)
    (arg3 : Memref sig .tc .vmem S128x64 .f32) (harg3 : arg3.IsWhole) (arg4 : Memref sig .tc .vmem S50x256 .f32) (harg4 : arg4.IsWhole)
    (x0 : Vec F S64x50x1024 .f32) (x1 : Vec F S1024x256 .f32) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ (∃ f, arg3.view.loc (c : Thread nD τ) ↦[arg3.view.set]{fullShare} arg3.view.writes (Elt F) f (pcs i x0 x1 k0_t1_loop.trips))
            ∗ (∃ d, owns (c : Thread nD τ) arg4 fullShare d)) -∗ K ⟨⟩))
      ⊢ wp frame (wpE (defs₀ (F := F)) Variants.none c none) E (cc0__kernel i arg1 harg1 arg2 harg2 arg3 harg3 arg4 harg4) K := by
  simp only [cc0__kernel_eq_skeleton]; unfold cc0__kernel_skel
  unfold owns
  iintro ⟨⟨%f0, %hf0, H0⟩, ⟨%f1, %hf1, H1⟩, ⟨%d2, %f2, -, H2⟩, ⟨%d3, %f3, -, H3⟩, Hk⟩
  sl_for (loopInv c i arg1 arg2 arg3 arg4 x0 x1 f0 f1 f2) $$ [H0 H1 H2 H3]
  case region =>
    intro k acc
    unfold loopInv
    iintro ⟨HR1, HR2, ⟨%g3, HW3, %hg3⟩, HW4⟩
    iapply (wp_wand_r Idealize.ShloMosaic.frame (wpE (defs₀ (F := F)) Variants.none (c : Thread nD τ) none) E)
    isplitl [HR1 HR2 HW3 HW4]
    · iapply (trip_sound Variants.none c none E i arg1 harg1 arg2 harg2 arg3 harg3 arg4 harg4 x0 x1 f0 hf0 f1 hf1 k g3)
      isplitl [HR1]; · iexact HR1
      isplitl [HR2]; · iexact HR2
      isplitl [HW3]; · iexact HW3
      iexact HW4
    · iintro %_ ⟨HR1, HR2, ⟨%g3', HW3, %hg3'⟩, HW4⟩
      isplitl [HR1]; · iexact HR1
      isplitl [HR2]; · iexact HR2
      isplitl [HW3]
      · iexists _; isplitl [HW3]; · iexact HW3
        ipureintro; rw [hg3', hg3, pcs_succ]; rfl
      iexact HW4
  · unfold loopInv
    isplitl [H0]; · iexact H0
    isplitl [H1]; · iexact H1
    isplitl [H2]
    · iexists _; isplitl [H2]; · iexact H2
      ipureintro; rfl
    iexists _; iexact H3
  iintro %acc HI
  unfold loopInv
  icases HI with ⟨H0, H1, ⟨%g3, H2, %hg3⟩, ⟨%g4, H3⟩⟩
  subst hg3
  sl_step
  iapply Hk
  isplitl [H0]
  · iexists _; isplitr; · ipureintro; exact hf0
    iexact H0
  isplitl [H1]
  · iexists _; isplitr; · ipureintro; exact hf1
    iexact H1
  isplitl [H2]; · iexists _; iexact H2
  iexists _; iexists _; isplitr
  swap; · iexact H3
  ipureintro; rfl

end Cert.Kernel.Body

end
-- ==== Proof.RunBits.lean ====
/-
  The launch side: the pipeline's proof data around the body's run, and the whole run of @main.

  The grid has two points; point `t` stages the whole first operand, the whole second operand (both fetched once)
  and block `t` (128 rows) of the result, which is written back at every point. After the body at point `t` the
  two operand buffers hold their blocks untouched and the result's buffer holds `outBlk`: the 64 columns of the
  body's loop read back as one block — they tile it, so what it held before does not matter. The scratch buffer is
  part of the region's invariant at unspecified contents: the body takes it and gives it back.
-/
import proofs.«175558_j42073499631717_2_alg».proof.Proof.BodyBits

set_option maxRecDepth 16384
set_option maxHeartbeats 4000000

noncomputable section

namespace Cert.Kernel.Run

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the result's window, through which the block's contents are stated (the choice does not
    matter: the columns cover the block). -/
abbrev VO : View sig .tc .vmem S128x64 .f32 := (Memref.whole cc0_stg2_0 : Memref sig .tc .vmem S128x64 .f32).view
/-- Each window's current staging memref at point `t`, and its wholeness. -/
abbrev ms0 (t : Fin cfg0.N) : Memref sig .tc .vmem S64x50x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x64 .f32 := win0_2.stage (cfg0.slots t 2)
abbrev hs2 (t : Fin cfg0.N) : (ms2 t).IsWhole := hstage0_2 ((cfg0.slots t 2).cast nbuf0_2)
/-- The scratch operand: a whole scoped buffer of the kernel's own. -/
abbrev scM : Memref sig .tc .vmem S50x256 .f32 := Memref.whole cc0_scratch0

/-- The region's invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The 64 columns tile the `[128, 64]` block. -/
theorem cover (i : grid0.Coords) (x0 : Vec F S64x50x1024 .f32) (x1 : Vec F S1024x256 .f32) (y : S128x64.Idx) :
    ∃ pc ∈ pcs (F := F) i x0 x1 k0_t1_loop.trips, y ∈ pc.1.set :=
  View.cover_of_tiledL (pcs (F := F) i x0 x1 k0_t1_loop.trips) S128x1.size (by sl_kernel_rfl) y

/-- What the body leaves in the result's staging buffer: its 64 columns read back as one block. -/
def outBlk (i : grid0.Coords) (x0 : Vec F S64x50x1024 .f32) (x1 : Vec F S1024x256 .f32) : Vec F S128x64 .f32 :=
  VO.read (Elt F) (VO.writes (Elt F) VO.junk (pcs i x0 x1 k0_t1_loop.trips))

/-! ## The pipeline's proof data -/

/-- The arrays as the region finds them; after the body at point `t` each operand's buffer at its block and the
    result's at `outBlk` of the two blocks; the invariant the scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (grid0.coords t) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = outBlk (grid0.coords t) (iblk m c 0 t) (iblk m c 1 t) := by dsimp only [dats]

/-- Each operand's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

/-- The body at any point: the operands' memrefs hold their blocks, the invariant hands over the scratch at some
    contents and takes it back at some contents, the result's buffer ends at `outBlk` because the columns cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA_eq]
  unfold outBlk
  iintro ⟨⟨HS, Hg⟩, Ho, ⟨%d0, H0⟩, ⟨%d1, H1⟩, ⟨%d2, H2⟩⟩
  iapply (body_run c (grid0.coords t) (ms0 t) (hs0 t) (ms1 t) (hs1 t) (ms2 t) (hs2 t) scM (Memref.isWhole_whole _)
    (iblk m c 0 t) (iblk m c 1 t) Set.univ _)
  isplitl [H0]; · iexact H0
  isplitl [H1]; · iexact H1
  isplitl [H2]; · iexists _; iexact H2
  isplitl [HS]; · iexact HS
  iintro ⟨H0, H1, ⟨%e2, H2⟩, HS⟩
  isplitl [HS Hg]
  · isplitl [HS]; · iexact HS
    iexact Hg
  isplitl [Ho]; · iexact Ho
  isplitl [H0]; · iexact H0
  isplitl [H1]; · iexact H1
  unfold owns; iexists _; isplitr
  swap; · iexact H2
  ipureintro; exact View.read_writes_of_cover _ _ _ _ _ (cover _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the pipeline
    ends at what the proof data computes, and every other unscoped buffer at what the host lines after the region
    leave in it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main terminates without a fault and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Run

end
-- ==== Proof.BodyIdeal.lean ====
/-
  The kernel body at one grid point, for any float instance.

  The body is one counted loop of 64 trips. Trip `o` loads slab `o` of the first operand (a `[50, 1024]` matrix)
  and the whole second operand, multiplies them into a `[50, 256]` product, stores the product over the whole
  scratch buffer, loads back from the scratch the 128 columns that belong to the grid point's query rows,
  computes from the product and that slice one `[128, 1]` column, and stores it as column `o` of the output
  block. So the scratch never carries anything from one trip to the next (every trip overwrites all of it
  before reading), and after the 64 trips the output block is, column by column, a fixed function of the two
  operand blocks: `colPay i x0 x1 o` below. The loop's invariant says exactly that: before trip `k` the output
  buffer holds columns `0 … k-1` written over whatever it held at entry, the operands are untouched, and the
  scratch holds something.
-/
import proofs.«175558_j42073499631717_2_alg».proof.Proof.Gen.KernelIdeal.Skeleton
import proofs.«175558_j42073499631717_2_alg».proof.Proof.Gen.KernelIdeal.Frame
import Idealize.ShloMosaic.Lib.Exec
import Idealize.ShloMosaic.Lib.Tactic
import Idealize.ShloMosaic.Lib.Pipeline.Kit
import Idealize.ShloMosaic.Lib.Pipeline.Value
import Idealize.ShloMosaic.Lib.Pipeline.FrameBody

set_option maxRecDepth 16384
set_option maxHeartbeats 4000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One trip's values, as functions of the two operand blocks -/

/-- Slab `k` of the first operand: the `[1, 50, 1024]` box at offset `k` along the leading axis. -/
def slab (x0 : Vec F S64x50x1024 .f32) (k : Fin k0_t1_loop.trips) : Vec F S1x50x1024 .f32 :=
  View.ld (Val := Elt F) x0 (Rect.unit (s := S64x50x1024) (k0_off1 k) S1x50x1024.size (k0_off1_inb k))

/-- The whole second operand, as the load through the zero-offset whole-shape box reads it. -/
def keys (x1 : Vec F S1024x256 .f32) : Vec F S1024x256 .f32 :=
  View.ld (Val := Elt F) x1 (Rect.unit (s := S1024x256) ![0, 0] S1024x256.size inb_S1024x256_S1024x256_0_0)

/-- The 128 columns of a `[50, 256]` matrix that belong to grid point `i`'s query rows. -/
def qcols (i : grid0.Coords) (w : Vec F S50x256 .f32) : Vec F S50x128 .f32 :=
  View.ld (Val := Elt F) w (Rect.unit (s := S50x256) (k0_off2 i) S50x128.size (k0_off2_inb i))

/-- The column trip `k` stores: the body's arithmetic on slab `k`, the second operand, and the query columns
    of their product. -/
def colPay (i : grid0.Coords) (x0 : Vec F S64x50x1024 .f32) (x1 : Vec F S1024x256 .f32) (k : Fin k0_t1_loop.trips) :
    Vec F S128x1 .f32 :=
  k0_pay3 (slab x0 k) (keys x1) (qcols i (k0_pay2 (slab x0 k) (keys x1)))

/-- Trip `k`'s store into the output block: column `k`. -/
def piece (i : grid0.Coords) (x0 : Vec F S64x50x1024 .f32) (x1 : Vec F S1024x256 .f32) (k : Fin k0_t1_loop.trips) :
    View.Piece (Elt F) S128x64 .f32 :=
  ⟨Rect.unit (s := S128x64) (k0_off3 k) S128x1.size (k0_off3_inb k), colPay i x0 x1 k⟩

/-- The stores of the trips before `n`, the last first. -/
def pcs (i : grid0.Coords) (x0 : Vec F S64x50x1024 .f32) (x1 : Vec F S1024x256 .f32) :
    ℕ → List (View.Piece (Elt F) S128x64 .f32)
  | 0 => []
  | n + 1 => if h : n < k0_t1_loop.trips then piece i x0 x1 ⟨n, h⟩ :: pcs i x0 x1 n else pcs i x0 x1 n

theorem pcs_succ (i : grid0.Coords) (x0 : Vec F S64x50x1024 .f32) (x1 : Vec F S1024x256 .f32) (k : Fin k0_t1_loop.trips) :
    pcs i x0 x1 (k.val + 1) = piece i x0 x1 k :: pcs i x0 x1 k.val := by
  rw [pcs, dif_pos k.isLt]

theorem hz2 : (![0, 0] : Fin 2 → Nat) = fun _ => 0 := by
  funext a; match a with | ⟨0, _⟩ => rfl | ⟨1, _⟩ => rfl

/-! ## One trip -/

/-- A load of the query columns from a scratch whose last store covered it whole reads the query columns of what
    was stored, whatever the scratch held before. -/
theorem read_back (i : grid0.Coords) (arg4 : Memref sig .tc .vmem S50x256 .f32) (w : Vec F S50x256 .f32) :
    View.readAt (Elt F) arg4.view (Rect.unit (s := S50x256) (k0_off2 i) S50x128.size (k0_off2_inb i)).toLoadRect
        (arg4.view.writes (Elt F) arg4.view.junk
          [(⟨Rect.unit (s := S50x256) ![0, 0] S50x256.size inb_S50x256_S50x256_0_0, w⟩ : View.Piece (Elt F) S50x256 .f32)])
      = qcols i w := by
  rw [View.readAt_writes_junk_eq_canon, View.canon_unit_zero hz2]; rfl

/-- One trip from the operands at contents reading `x0`, `x1`, the output buffer at `f3` and the scratch at
    anything: the operands are as they were, the output buffer has column `k` written over `f3`, the scratch
    holds something. -/
theorem trip_sound (𝒱 : Variants) (c : Dev nD) (bd : Option 𝒱.V) (E : Set ℕ) (i : grid0.Coords)
    (arg1 : Memref sig .tc .vmem S64x50x1024 .f32) (harg1 : arg1.IsWhole) (arg2 : Memref sig .tc .vmem S1024x256 .f32) (harg2 : arg2.IsWhole)
    (arg3 : Memref sig .tc .vmem S128x64 .f32) (harg3 : arg3.IsWhole) (arg4 : Memref sig .tc .vmem S50x256 .f32) (harg4 : arg4.IsWhole)
    (x0 : Vec F S64x50x1024 .f32) (x1 : Vec F S1024x256 .f32)
    (X1 : BufTy.Contents (Elt F) arg1.view.ty) (h1 : arg1.view.read (Elt F) X1 = x0)
    (X2 : BufTy.Contents (Elt F) arg2.view.ty) (h2 : arg2.view.read (Elt F) X2 = x1)
    (k : Fin k0_t1_loop.trips) (f3 : BufTy.Contents (Elt F) arg3.view.ty) :
    (iprop((arg1.view.loc (c : Thread nD τ) ↦[arg1.view.set]{fullShare} X1) ∗ (arg2.view.loc (c : Thread nD τ) ↦[arg2.view.set]{fullShare} X2)
        ∗ (arg3.view.loc (c : Thread nD τ) ↦[arg3.view.set]{fullShare} f3)
        ∗ (∃ f4, arg4.view.loc (c : Thread nD τ) ↦[arg4.view.set]{fullShare} f4)) : sProp 𝕄)
      ⊢ wp frame (wpE (defs₀ (F := F)) 𝒱 (c : Thread nD τ) bd) E (k0_t1_body (F := F) i arg1 harg1 arg2 harg2 arg3 harg3 arg4 harg4 k PUnit.unit)
          (fun _ => iprop((arg1.view.loc (c : Thread nD τ) ↦[arg1.view.set]{fullShare} X1) ∗ (arg2.view.loc (c : Thread nD τ) ↦[arg2.view.set]{fullShare} X2)
            ∗ (∃ f3', (arg3.view.loc (c : Thread nD τ) ↦[arg3.view.set]{fullShare} f3') ∗ ⌜f3' = arg3.view.writes (Elt F) f3 [piece i x0 x1 k]⌝)
            ∗ (∃ f4, arg4.view.loc (c : Thread nD τ) ↦[arg4.view.set]{fullShare} f4))) := by
  have hk : k.val < 64 := Nat.lt_of_lt_of_le k.isLt k0_t1_abs.2.1
  have e1 : View.readAt (Elt F) arg1.view (Rect.unit (s := S64x50x1024) (k0_off1 k) S1x50x1024.size (k0_off1_inb k)).toLoadRect X1 = slab x0 k := by
    rw [← h1]; rfl
  have e2 : View.readAt (Elt F) arg2.view (Rect.unit (s := S1024x256) ![0, 0] S1024x256.size inb_S1024x256_S1024x256_0_0).toLoadRect X2 = keys x1 := by
    rw [← h2]; rfl
  unfold k0_t1_body
  iintro ⟨HR_arg1, HR_arg2, HW_arg3, ⟨%f4, HW_arg4⟩⟩
  sl_exec
  sl_step
  isplitl [HR_arg1]; · iexact HR_arg1
  isplitl [HR_arg2]; · iexact HR_arg2
  isplitl [HW_arg3]
  · iexists _; isplitl [HW_arg3]; · iexact HW_arg3
    ipureintro
    refine congrArg (fun p => arg3.view.writes (Elt F) f3
      [(⟨Rect.unit (s := S128x64) (k0_off3 k) S128x1.size (k0_off3_inb k), p⟩ : View.Piece (Elt F) S128x64 .f32)]) ?_
    sl_unfold_run_names
    rw [read_back]
    rfl
  iexists _; iexact HW_arg4

/-! ## The loop and the whole body -/

/-- Before trip `n`: the operands at their contents, the output buffer with the columns of the trips before `n`
    written over its contents `G3` at entry, the scratch at anything. -/
def loopInv (c : Dev nD) (i : grid0.Coords)
    (arg1 : Memref sig .tc .vmem S64x50x1024 .f32) (arg2 : Memref sig .tc .vmem S1024x256 .f32)
    (arg3 : Memref sig .tc .vmem S128x64 .f32) (arg4 : Memref sig .tc .vmem S50x256 .f32)
    (x0 : Vec F S64x50x1024 .f32) (x1 : Vec F S1024x256 .f32)
    (X1 : BufTy.Contents (Elt F) arg1.view.ty) (X2 : BufTy.Contents (Elt F) arg2.view.ty) (G3 : BufTy.Contents (Elt F) arg3.view.ty)
    (n : ℕ) (_ : Unit) : sProp 𝕄 :=
  iprop((arg1.view.loc (c : Thread nD τ) ↦[arg1.view.set]{fullShare} X1) ∗ (arg2.view.loc (c : Thread nD τ) ↦[arg2.view.set]{fullShare} X2)
    ∗ (∃ f3, (arg3.view.loc (c : Thread nD τ) ↦[arg3.view.set]{fullShare} f3) ∗ ⌜f3 = arg3.view.writes (Elt F) G3 (pcs i x0 x1 n)⌝)
    ∗ (∃ f4, arg4.view.loc (c : Thread nD τ) ↦[arg4.view.set]{fullShare} f4))

/-- The body on any whole staging memrefs: from the operands' buffers reading `x0`, `x1`, the output's and the
    scratch at anything, it runs to the continuation with the operands as they were, the output buffer with all 64
    columns written over what it held, and the scratch at something. -/
theorem body_run (c : Dev nD) (i : grid0.Coords)
    (arg1 : Memref sig .tc .vmem S64x50x1024 .f32) (harg1 : arg1.IsWhole) (arg2 : Memref sig .tc .vmem S1024x256 .f32) (harg2 : arg2.IsWhole)
    (arg3 : Memref sig .tc .vmem S128x64 .f32) (harg3 : arg3.IsWhole) (arg4 : Memref sig .tc .vmem S50x256 .f32) (harg4 : arg4.IsWhole)
    (x0 : Vec F S64x50x1024 .f32) (x1 : Vec F S1024x256 .f32) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ (∃ f, arg3.view.loc (c : Thread nD τ) ↦[arg3.view.set]{fullShare} arg3.view.writes (Elt F) f (pcs i x0 x1 k0_t1_loop.trips))
            ∗ (∃ d, owns (c : Thread nD τ) arg4 fullShare d)) -∗ K ⟨⟩))
      ⊢ wp frame (wpE (defs₀ (F := F)) Variants.none c none) E (cc0__kernel i arg1 harg1 arg2 harg2 arg3 harg3 arg4 harg4) K := by
  simp only [cc0__kernel_eq_skeleton]; unfold cc0__kernel_skel
  unfold owns
  iintro ⟨⟨%f0, %hf0, H0⟩, ⟨%f1, %hf1, H1⟩, ⟨%d2, %f2, -, H2⟩, ⟨%d3, %f3, -, H3⟩, Hk⟩
  sl_for (loopInv c i arg1 arg2 arg3 arg4 x0 x1 f0 f1 f2) $$ [H0 H1 H2 H3]
  case region =>
    intro k acc
    unfold loopInv
    iintro ⟨HR1, HR2, ⟨%g3, HW3, %hg3⟩, HW4⟩
    iapply (wp_wand_r Idealize.ShloMosaic.frame (wpE (defs₀ (F := F)) Variants.none (c : Thread nD τ) none) E)
    isplitl [HR1 HR2 HW3 HW4]
    · iapply (trip_sound Variants.none c none E i arg1 harg1 arg2 harg2 arg3 harg3 arg4 harg4 x0 x1 f0 hf0 f1 hf1 k g3)
      isplitl [HR1]; · iexact HR1
      isplitl [HR2]; · iexact HR2
      isplitl [HW3]; · iexact HW3
      iexact HW4
    · iintro %_ ⟨HR1, HR2, ⟨%g3', HW3, %hg3'⟩, HW4⟩
      isplitl [HR1]; · iexact HR1
      isplitl [HR2]; · iexact HR2
      isplitl [HW3]
      · iexists _; isplitl [HW3]; · iexact HW3
        ipureintro; rw [hg3', hg3, pcs_succ]; rfl
      iexact HW4
  · unfold loopInv
    isplitl [H0]; · iexact H0
    isplitl [H1]; · iexact H1
    isplitl [H2]
    · iexists _; isplitl [H2]; · iexact H2
      ipureintro; rfl
    iexists _; iexact H3
  iintro %acc HI
  unfold loopInv
  icases HI with ⟨H0, H1, ⟨%g3, H2, %hg3⟩, ⟨%g4, H3⟩⟩
  subst hg3
  sl_step
  iapply Hk
  isplitl [H0]
  · iexists _; isplitr; · ipureintro; exact hf0
    iexact H0
  isplitl [H1]
  · iexists _; isplitr; · ipureintro; exact hf1
    iexact H1
  isplitl [H2]; · iexists _; iexact H2
  iexists _; iexists _; isplitr
  swap; · iexact H3
  ipureintro; rfl

end Cert.KernelIdeal.Body

end
-- ==== Proof.RunIdeal.lean ====
/-
  The launch side: the pipeline's proof data around the body's run, and the whole run of @main.

  The grid has two points; point `t` stages the whole first operand, the whole second operand (both fetched once)
  and block `t` (128 rows) of the result, which is written back at every point. After the body at point `t` the
  two operand buffers hold their blocks untouched and the result's buffer holds `outBlk`: the 64 columns of the
  body's loop read back as one block — they tile it, so what it held before does not matter. The scratch buffer is
  part of the region's invariant at unspecified contents: the body takes it and gives it back.
-/
import proofs.«175558_j42073499631717_2_alg».proof.Proof.BodyIdeal

set_option maxRecDepth 16384
set_option maxHeartbeats 4000000

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the result's window, through which the block's contents are stated (the choice does not
    matter: the columns cover the block). -/
abbrev VO : View sig .tc .vmem S128x64 .f32 := (Memref.whole cc0_stg2_0 : Memref sig .tc .vmem S128x64 .f32).view
/-- Each window's current staging memref at point `t`, and its wholeness. -/
abbrev ms0 (t : Fin cfg0.N) : Memref sig .tc .vmem S64x50x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x64 .f32 := win0_2.stage (cfg0.slots t 2)
abbrev hs2 (t : Fin cfg0.N) : (ms2 t).IsWhole := hstage0_2 ((cfg0.slots t 2).cast nbuf0_2)
/-- The scratch operand: a whole scoped buffer of the kernel's own. -/
abbrev scM : Memref sig .tc .vmem S50x256 .f32 := Memref.whole cc0_scratch0

/-- The region's invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The 64 columns tile the `[128, 64]` block. -/
theorem cover (i : grid0.Coords) (x0 : Vec F S64x50x1024 .f32) (x1 : Vec F S1024x256 .f32) (y : S128x64.Idx) :
    ∃ pc ∈ pcs (F := F) i x0 x1 k0_t1_loop.trips, y ∈ pc.1.set :=
  View.cover_of_tiledL (pcs (F := F) i x0 x1 k0_t1_loop.trips) S128x1.size (by sl_kernel_rfl) y

/-- What the body leaves in the result's staging buffer: its 64 columns read back as one block. -/
def outBlk (i : grid0.Coords) (x0 : Vec F S64x50x1024 .f32) (x1 : Vec F S1024x256 .f32) : Vec F S128x64 .f32 :=
  VO.read (Elt F) (VO.writes (Elt F) VO.junk (pcs i x0 x1 k0_t1_loop.trips))

/-! ## The pipeline's proof data -/

/-- The arrays as the region finds them; after the body at point `t` each operand's buffer at its block and the
    result's at `outBlk` of the two blocks; the invariant the scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (grid0.coords t) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = outBlk (grid0.coords t) (iblk m c 0 t) (iblk m c 1 t) := by dsimp only [dats]

/-- Each operand's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

/-- The body at any point: the operands' memrefs hold their blocks, the invariant hands over the scratch at some
    contents and takes it back at some contents, the result's buffer ends at `outBlk` because the columns cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA_eq]
  unfold outBlk
  iintro ⟨⟨HS, Hg⟩, Ho, ⟨%d0, H0⟩, ⟨%d1, H1⟩, ⟨%d2, H2⟩⟩
  iapply (body_run c (grid0.coords t) (ms0 t) (hs0 t) (ms1 t) (hs1 t) (ms2 t) (hs2 t) scM (Memref.isWhole_whole _)
    (iblk m c 0 t) (iblk m c 1 t) Set.univ _)
  isplitl [H0]; · iexact H0
  isplitl [H1]; · iexact H1
  isplitl [H2]; · iexists _; iexact H2
  isplitl [HS]; · iexact HS
  iintro ⟨H0, H1, ⟨%e2, H2⟩, HS⟩
  isplitl [HS Hg]
  · isplitl [HS]; · iexact HS
    iexact Hg
  isplitl [Ho]; · iexact Ho
  isplitl [H0]; · iexact H0
  isplitl [H1]; · iexact H1
  unfold owns; iexists _; isplitr
  swap; · iexact H2
  ipureintro; exact View.read_writes_of_cover _ _ _ _ _ (cover _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the pipeline
    ends at what the proof data computes, and every other unscoped buffer at what the host lines after the region
    leave in it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main terminates without a fault and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Run

end
-- ==== Proof.LibUnitAxis.lean ====
/-
  Unit axes added by a shape cast or spread by a broadcast, read at an index — general in the extents and the
  element type.

  `jnp` code that compares every row with every other (`a[:, :, None] - b[:, None, :]`) or keeps a reduced axis
  (`keepdims=True`) prints as a shape cast that inserts an axis of extent one followed by a broadcast along it. Read
  at an index written by its coordinates:
    * `[a] → [a, 1]`:        entry `(i, 0)`    is the operand at `i`;
    * `[a, b] → [a, b, 1]`:  entry `(i, j, 0)` is the operand at `(i, j)`;
    * `[a, b] → [a, 1, b]`:  entry `(i, 0, j)` is the operand at `(i, j)`;
    * `[a, b, 1] → [a, b, c]` (broadcast): entry `(i, j, l)` is the operand at `(i, j, 0)`;
    * `[a, 1, c] → [a, b, c]` (broadcast): entry `(i, j, l)` is the operand at `(i, 0, l)`.
  The casts are row-major position arithmetic (`(i·b + j)·1 + 0 = i·b + j`); the broadcasts read coordinate `0` on an
  axis of extent one and the result's coordinate elsewhere.
-/
import Idealize.ShloMosaic.Lib.ValueIdx
import Idealize.ShloMosaic.Lib.Pipeline.Value
import Idealize.ShloMosaic.Lib.ValueLayout

noncomputable section

namespace Cert.LibUnitAxis

open Idealize.ShloMosaic Idealize.ShloMosaic.ValueIdx

/-! ## Shape casts that add a unit axis, read at an index -/

section Layout
variable {α : Type}

/-- A vector [a] cast to the column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b] array cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-! ## Broadcasts along a unit axis, read at an index -/

/-- An [a, b, 1] array broadcast to [a, b, c] reads, at (i, j, l), the operand at (i, j, 0). -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ x h (ix3 i j l) = x (ix3 i j (0 : Fin 1)) := by
  refine broadcastTo_apply x h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An [a, 1, c] array broadcast to [a, b, c] reads, at (i, j, l), the operand at (i, 0, l). -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (l : Fin c) :
    broadcastTo ⟨3, ![a, b, c]⟩ x h (ix3 i j l) = x (ix3 i (0 : Fin 1) l) := by
  refine broadcastTo_apply x h (ix3 i j l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if c = 1 then 0 else l.val
    split
    · have := l.isLt; omega
    · rfl

end Layout

end Cert.LibUnitAxis

end
-- ==== Proof.PayloadAt.lean ====
/-
  The kernel body's arithmetic, read at an index.

  The three pure values the body computes are, at the extended reals:
    * the product block  P (k, b) = ∑ n, A (0, k, n) · B (n, b)   (a matrix product into a zero accumulator),
    * the same block again (a shape cast of a shape onto itself is the identity),
    * the column  q ↦ (∑ b, exp (−∑ k, |C (k, q) − P (k, b)|)) − 1,
      the literal 1 kept as the word that is printed for it.
  Each non-pointwise operation (shape cast, broadcast, reduction over one axis, matrix product) is read at an index
  written by its coordinates in a lemma of its own; the three theorems chain them.
-/
import proofs.«175558_j42073499631717_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout
import proofs.«175558_j42073499631717_2_alg».proof.Proof.LibUnitAxis

noncomputable section

namespace Cert.KernelIdeal.PayValue

open Cert.KernelIdeal Cert.KernelIdeal.Gen Idealize.ShloMosaic Idealize.ShloMosaic.ValueIdx Cert.LibUnitAxis

/-! ## The two sums over one axis, read at an index -/

/-- The sum over the leading axis of a [50, 128, 256] array reads, at (q, b), the sum over k of the array at
(k, q, b): no accumulator term. -/
theorem sum_axis0_apply (src : FVec Ideal S50x128x256 .f32) (hφ : FKind.Formats .f32)
    (hacc : (0x00000000#32 : BitVec 32) = FKind.add.neutral .f32 hφ) (q : Fin 128) (b : Fin 256) :
    multiReduction .add [0] S128x256 src 0x00000000#32 reduces_S50x128x256_S128x256 hφ hacc (ix2 q b)
      = ∑ k : Fin 50, src (ix3 k q b) := by
  refine (Ideal.multiReduction_add_single src 0x00000000#32 reduces_S50x128x256_S128x256 hφ hacc (ix2 q b)).trans ?_
  refine Finset.sum_congr rfl fun k _ => congrArg src (funext fun c => ?_)
  match c with
  | ⟨0, _⟩ => rfl
  | ⟨1, _⟩ => rfl
  | ⟨2, _⟩ => rfl

/-- The sum over the trailing axis of a [128, 256] array reads, at q, the sum over b of the array at (q, b). -/
theorem sum_axis1_apply (src : FVec Ideal S128x256 .f32) (hφ : FKind.Formats .f32)
    (hacc : (0x00000000#32 : BitVec 32) = FKind.add.neutral .f32 hφ) (q : Fin 128) :
    multiReduction .add [1] S128 src 0x00000000#32 reduces_S128x256_S128 hφ hacc (ix1 q)
      = ∑ b : Fin 256, src (ix2 q b) := by
  refine (Ideal.multiReduction_add_single src 0x00000000#32 reduces_S128x256_S128 hφ hacc (ix1 q)).trans ?_
  refine Finset.sum_congr rfl fun b _ => congrArg src (funext fun c => ?_)
  match c with
  | ⟨0, _⟩ => rfl
  | ⟨1, _⟩ => rfl

/-! ## The matrix product, read at an index -/

/-- On the kept axis of the left operand the operand index has the output's row coordinate. -/
theorem lhsIdx_0 (i : S50x256.Idx) (q : dot_S50x1024_S1024x256_S50x256_1_0_0_1_n_n.contr.Idx) :
    (dot_S50x1024_S1024x256_S50x256_1_0_0_1_n_n.lhsIdx i q 0).val = (i 0).val := by
  unfold DotDims.lhsIdx
  rw [dif_neg (show ¬(0 : Fin S50x1024.rank) ∈ dot_S50x1024_S1024x256_S50x256_1_0_0_1_n_n.lhsBatch by decide),
    dif_pos (show (0 : Fin S50x1024.rank) ∈ dot_S50x1024_S1024x256_S50x256_1_0_0_1_n_n.lhsNonContracting by decide)]
  rfl
/-- On the contracted axis of the left operand it has the contraction index's one coordinate. -/
theorem lhsIdx_1 (i : S50x256.Idx) (q : dot_S50x1024_S1024x256_S50x256_1_0_0_1_n_n.contr.Idx) :
    (dot_S50x1024_S1024x256_S50x256_1_0_0_1_n_n.lhsIdx i q 1).val = (q ⟨0, by decide⟩).val :=
  dot_S50x1024_S1024x256_S50x256_1_0_0_1_n_n.lhsIdx_val_of_single rfl i q
/-- On the contracted axis of the right operand likewise. -/
theorem rhsIdx_0 (i : S50x256.Idx) (q : dot_S50x1024_S1024x256_S50x256_1_0_0_1_n_n.contr.Idx) :
    (dot_S50x1024_S1024x256_S50x256_1_0_0_1_n_n.rhsIdx i q 0).val = (q ⟨0, by decide⟩).val :=
  dot_S50x1024_S1024x256_S50x256_1_0_0_1_n_n.rhsIdx_val_of_single rfl i q
/-- On the kept axis of the right operand the operand index has the output's column coordinate. -/
theorem rhsIdx_1 (i : S50x256.Idx) (q : dot_S50x1024_S1024x256_S50x256_1_0_0_1_n_n.contr.Idx) :
    (dot_S50x1024_S1024x256_S50x256_1_0_0_1_n_n.rhsIdx i q 1).val = (i 1).val := by
  unfold DotDims.rhsIdx
  rw [dif_neg (show ¬(1 : Fin S1024x256.rank) ∈ dot_S50x1024_S1024x256_S50x256_1_0_0_1_n_n.rhsBatch by decide),
    dif_pos (show (1 : Fin S1024x256.rank) ∈ dot_S50x1024_S1024x256_S50x256_1_0_0_1_n_n.rhsNonContracting by decide)]
  rfl

/-- The product [50, 1024] × [1024, 256] into the zero accumulator reads, at (k, b), the sum over the contracted
coordinate n of the left operand at (k, n) times the right operand at (n, b). -/
theorem matmul_zero_apply (A : FVec Ideal S50x1024 .f32) (B : FVec Ideal S1024x256 .f32) (k : Fin 50) (b : Fin 256) :
    matmul dot_S50x1024_S1024x256_S50x256_1_0_0_1_n_n (some .fp32) A B (constant (F := Ideal) S50x256 .f32 0x00000000#32) (ix2 k b)
      = ∑ n : Fin 1024, A (ix2 k n) * B (ix2 n b) := by
  refine (Ideal.matmul_constant_zero_apply dot_S50x1024_S1024x256_S50x256_1_0_0_1_n_n (some .fp32) A B (ix2 k b)).trans ?_
  rw [← Equiv.sum_comp (contrEquiv1 dot_S50x1024_S1024x256_S50x256_1_0_0_1_n_n 1024 rfl rfl).symm]
  refine Finset.sum_congr rfl fun n _ => ?_
  have hn := contrEquiv1_symm_val dot_S50x1024_S1024x256_S50x256_1_0_0_1_n_n 1024 rfl rfl n
  have el : dot_S50x1024_S1024x256_S50x256_1_0_0_1_n_n.lhsIdx (ix2 k b)
      ((contrEquiv1 dot_S50x1024_S1024x256_S50x256_1_0_0_1_n_n 1024 rfl rfl).symm n) = ix2 k n :=
    funext fun a => Fin.ext (by
      match a with
      | ⟨0, _⟩ => exact lhsIdx_0 _ _
      | ⟨1, _⟩ => exact (lhsIdx_1 _ _).trans hn)
  have er : dot_S50x1024_S1024x256_S50x256_1_0_0_1_n_n.rhsIdx (ix2 k b)
      ((contrEquiv1 dot_S50x1024_S1024x256_S50x256_1_0_0_1_n_n 1024 rfl rfl).symm n) = ix2 n b :=
    funext fun a => Fin.ext (by
      match a with
      | ⟨0, _⟩ => exact (rhsIdx_0 _ _).trans hn
      | ⟨1, _⟩ => exact rhsIdx_1 _ _)
  rw [el, er]

/-! ## The three values -/

/-- The product block: at (k, b), row k of the loaded [1, 50, 1024] block against column b of the [1024, 256] one. -/
theorem k0_pay1_apply (v6 : Vec Ideal S1x50x1024 .f32) (v8 : Vec Ideal S1024x256 .f32) (k : Fin 50) (b : Fin 256) :
    k0_pay1 (F := Ideal) v6 v8 (ix2 k b) = ∑ n : Fin 1024, v6 (ix3 0 k n) * v8 (ix2 n b) := by
  refine (matmul_zero_apply (shapeCast S50x1024 v6 shapeCasts_S1x50x1024_S50x1024)
    (shapeCast S1024x256 v8 shapeCasts_S1024x256_S1024x256) k b).trans ?_
  refine Finset.sum_congr rfl fun n _ => ?_
  rw [shapeCast_1ab_ab_apply v6 shapeCasts_S1x50x1024_S50x1024 k n, shapeCast_self v8 shapeCasts_S1024x256_S1024x256]

/-- The stored copy of the product block is the block: a shape cast of a shape onto itself is the identity. -/
theorem k0_pay2_eq (v6 : Vec Ideal S1x50x1024 .f32) (v8 : Vec Ideal S1024x256 .f32) :
    k0_pay2 (F := Ideal) v6 v8 = k0_pay1 (F := Ideal) v6 v8 :=
  shapeCast_self (k0_pay1 (F := Ideal) v6 v8) shapeCasts_S50x256_S50x256

/-- The left operand of the distance, a [50, 128] block spread along a new trailing axis: at (k, q, b) it is the block
at (k, q). -/
theorem spreadLast_apply (C : FVec Ideal S50x128 .f32) (k : Fin 50) (q : Fin 128) (b : Fin 256) :
    broadcastTo S50x128x256 (shapeCast S50x128x1 C shapeCasts_S50x128_S50x128x1) broadcasts_S50x128x1_S50x128x256 (ix3 k q b)
      = C (ix2 k q) :=
  (broadcastTo_ab1_abc_apply (shapeCast S50x128x1 C shapeCasts_S50x128_S50x128x1) broadcasts_S50x128x1_S50x128x256 k q b).trans
    (shapeCast_ab_ab1_apply C shapeCasts_S50x128_S50x128x1 k q 0)

/-- The right operand of the distance, a [50, 256] block spread along a new middle axis: at (k, q, b) it is the block
at (k, b). -/
theorem spreadMid_apply (Q : FVec Ideal S50x256 .f32) (k : Fin 50) (q : Fin 128) (b : Fin 256) :
    broadcastTo S50x128x256 (shapeCast S50x1x256 Q shapeCasts_S50x256_S50x1x256) broadcasts_S50x1x256_S50x128x256 (ix3 k q b)
      = Q (ix2 k b) :=
  (broadcastTo_a1c_abc_apply (shapeCast S50x1x256 Q shapeCasts_S50x256_S50x1x256) broadcasts_S50x1x256_S50x128x256 k q b).trans
    (shapeCast_ab_a1b_apply Q shapeCasts_S50x256_S50x1x256 k 0 b)

/-- The array of L1 distances between column q of C and column b of Q, as the body computes it. -/
def distVal (C : FVec Ideal S50x128 .f32) (Q : FVec Ideal S50x256 .f32) : FVec Ideal S128x256 .f32 :=
  multiReduction .add [0] S128x256
    (absf (subf (broadcastTo S50x128x256 (shapeCast S50x128x1 C shapeCasts_S50x128_S50x128x1) broadcasts_S50x128x1_S50x128x256)
      (broadcastTo S50x128x256 (shapeCast S50x1x256 Q shapeCasts_S50x256_S50x1x256) broadcasts_S50x1x256_S50x128x256)))
    0x00000000#32 reduces_S50x128x256_S128x256 (.inl rfl) rfl

/-- At (q, b) it is the sum over k of |C (k, q) − Q (k, b)|. -/
theorem distVal_apply (C : FVec Ideal S50x128 .f32) (Q : FVec Ideal S50x256 .f32) (q : Fin 128) (b : Fin 256) :
    distVal C Q (ix2 q b) = ∑ k : Fin 50, FloatOps.absf (F := Ideal) (φ := .f32) (C (ix2 k q) - Q (ix2 k b)) := by
  refine (sum_axis0_apply _ (.inl rfl) rfl q b).trans ?_
  refine Finset.sum_congr rfl fun k _ => ?_
  exact congrArg (FloatOps.absf (F := Ideal) (φ := .f32))
    (congrArg₂ (fun x y : EReal => x - y) (spreadLast_apply C k q b) (spreadMid_apply Q k q b))

/-- The column of discrimination features the body stores: at (q, 0), the sum over the 256 columns b of exp of minus
the L1 distance between column q of the loaded [50, 128] block and column b of the product block, less the word of 1. -/
theorem k0_pay3_apply (v6 : Vec Ideal S1x50x1024 .f32) (v8 : Vec Ideal S1024x256 .f32) (v15 : Vec Ideal S50x128 .f32) (q : Fin 128) :
    k0_pay3 (F := Ideal) v6 v8 v15 (ix2 q 0)
      = (∑ b : Fin 256, Ideal.exp (-(∑ k : Fin 50, FloatOps.absf (F := Ideal) (φ := .f32)
          (v15 (ix2 k q) - k0_pay1 (F := Ideal) v6 v8 (ix2 k b))))) - Ideal.ofBits .f32 0x3F800000#32 := by
  have h0 : k0_pay3 (F := Ideal) v6 v8 v15 (ix2 q 0)
      = shapeCast S128x1 (multiReduction .add [1] S128
          (exp (subf (broadcast S128x256 (Scalar.ofBits (F := Ideal) .f32 0x00000000#32)) (distVal v15 (k0_pay1 (F := Ideal) v6 v8))))
          0x00000000#32 reduces_S128x256_S128 (.inl rfl) rfl) shapeCasts_S128_S128x1 (ix2 q 0)
        - Ideal.ofBits .f32 0x3F800000#32 := rfl
  refine h0.trans (congrArg (fun x : EReal => x - Ideal.ofBits .f32 0x3F800000#32) ?_)
  refine (shapeCast_a_a1_apply _ shapeCasts_S128_S128x1 q 0).trans ?_
  refine (sum_axis1_apply _ (.inl rfl) rfl q).trans ?_
  refine Finset.sum_congr rfl fun b _ => ?_
  show Ideal.exp (Ideal.ofBits .f32 0x00000000#32 - distVal v15 (k0_pay1 (F := Ideal) v6 v8) (ix2 q b)) = _
  rw [Ideal.ofBits_zero_f32, zero_sub, distVal_apply]

end Cert.KernelIdeal.PayValue

end
-- ==== Proof.ColumnIdeal.lean ====
/-
  The block the body leaves, entry by entry, at the extended reals.

  The 64 stored columns tile the `[128, 64]` block, so the block's entry `(q, o)` is entry `q` of the column trip
  `o` stored. That column is the body's arithmetic on slab `o` of the first operand block `x0 : [64, 50, 1024]` and
  the second operand block `x1 : [1024, 256]`: with `P (k, b) = ∑ n, x0 (o, k, n) · x1 (n, b)` the product of the
  slab and the second operand, and `p` the grid point, it is

      (∑ b, exp (−∑ k, |P (k, 128·p + q) − P (k, b)|)) − 1,

  the query columns being columns `128·p …` of the product itself (stored to the scratch and loaded back).
-/
import proofs.«175558_j42073499631717_2_alg».proof.Proof.RunIdeal
import proofs.«175558_j42073499631717_2_alg».proof.Proof.PayloadAt
import Idealize.ShloMosaic.Lib.ValueIdx
import Idealize.ShloMosaic.Lib.Pipeline.Value

noncomputable section

namespace Cert.KernelIdeal.Column

open Cert.KernelIdeal Cert.KernelIdeal.Gen Cert.KernelIdeal.Body Cert.KernelIdeal.Run Cert.KernelIdeal.PayValue
open Idealize.ShloMosaic Idealize.ShloMosaic.ValueIdx

/-- The loop runs 64 trips. -/
theorem trips_eq : k0_t1_loop.trips = 64 := by decide

/-- Output feature `o` as the loop's trip. -/
def trip (o : Fin 64) : Fin k0_t1_loop.trips := ⟨o.val, by rw [trips_eq]; exact o.isLt⟩

variable {F : FTy → Type} [FloatOps F]

/-- Every store of the list is some trip's column. -/
theorem mem_pcs (i : grid0.Coords) (x0 : Vec F S64x50x1024 .f32) (x1 : Vec F S1024x256 .f32) :
    ∀ (n : ℕ) (p : View.Piece (Elt F) S128x64 .f32), p ∈ pcs i x0 x1 n → ∃ k : Fin k0_t1_loop.trips, p = piece i x0 x1 k
  | 0, p, h => by simp [pcs] at h
  | n + 1, p, h => by
    rw [pcs] at h
    split at h
    · rcases List.mem_cons.mp h with rfl | h'
      · exact ⟨_, rfl⟩
      · exact mem_pcs i x0 x1 n p h'
    · exact mem_pcs i x0 x1 n p h

/-- The block as one function of its index: entry `(q, o)` is entry `q` of trip `o`'s column. -/
def colFn (i : grid0.Coords) (x0 : Vec F S64x50x1024 .f32) (x1 : Vec F S1024x256 .f32) : S128x64.Idx → Elt F .f32 :=
  fun y => colPay i x0 x1 ⟨(y 1).val, by rw [trips_eq]; exact (y 1).isLt⟩ (ix2 (n0 := 128) (n1 := 1) ⟨(y 0).val, (y 0).isLt⟩ 0)

/-- Each stored column is the restriction of that function to the column's rectangle. -/
theorem piece_eq_colFn (i : grid0.Coords) (x0 : Vec F S64x50x1024 .f32) (x1 : Vec F S1024x256 .f32)
    (k : Fin k0_t1_loop.trips) (x : (piece i x0 x1 k).1.shape.Idx) :
    (piece i x0 x1 k).2 x = colFn i x0 x1 ((piece i x0 x1 k).1.emb x) := by
  have h1 : (x 1).val < 1 := (x 1).isLt
  have hk' : (⟨(((piece i x0 x1 k).1.emb x) 1).val, by rw [trips_eq]; exact (((piece i x0 x1 k).1.emb x) 1).isLt⟩ : Fin k0_t1_loop.trips) = k :=
    Fin.ext (by
      show (k0_off3 k) 1 + 1 * (x 1).val = k.val
      rw [k0_off3_eq]
      show k.val + 1 * (x 1).val = k.val
      omega)
  have hx : (ix2 (n0 := 128) (n1 := 1) ⟨(((piece i x0 x1 k).1.emb x) 0).val, (((piece i x0 x1 k).1.emb x) 0).isLt⟩ 0 : S128x1.Idx) = x :=
    funext fun a => Fin.ext (by
      match a with
      | ⟨0, _⟩ =>
        show (k0_off3 k) 0 + 1 * (x 0).val = (x 0).val
        rw [k0_off3_eq]
        show 0 + 1 * (x 0).val = (x 0).val
        omega
      | ⟨1, _⟩ =>
        show (0 : ℕ) = (x 1).val
        omega)
  show colPay i x0 x1 k x = colPay i x0 x1 _ _
  rw [hk', hx]

/-- The block the body leaves is that function. -/
theorem outBlk_eq (i : grid0.Coords) (x0 : Vec F S64x50x1024 .f32) (x1 : Vec F S1024x256 .f32) :
    outBlk i x0 x1 = colFn i x0 x1 := by
  unfold outBlk
  rw [View.read_writes_junk_eq_canon]
  funext y
  refine View.canon_apply_of_pieces (colFn i x0 x1) _ (fun p hp x => ?_) y (cover i x0 x1 y)
  obtain ⟨k, rfl⟩ := mem_pcs i x0 x1 _ p hp
  exact piece_eq_colFn i x0 x1 k x

/-- Entry `(q, o)` of the block is entry `q` of trip `o`'s column. -/
theorem outBlk_ix2 (i : grid0.Coords) (x0 : Vec F S64x50x1024 .f32) (x1 : Vec F S1024x256 .f32) (q : Fin 128) (o : Fin 64) :
    outBlk i x0 x1 (ix2 q o) = colPay i x0 x1 (trip o) (ix2 q 0) := by
  rw [outBlk_eq]; rfl

/-! ## The loads, read at an index -/

/-- Slab `o` at `(0, k, n)` is the operand at `(o, k, n)`. -/
theorem slab_apply (x0 : Vec F S64x50x1024 .f32) (o : Fin 64) (k : Fin 50) (n : Fin 1024) :
    slab x0 (trip o) (ix3 0 k n) = x0 (ix3 o k n) := by
  show x0 ((Rect.unit (s := S64x50x1024) (k0_off1 (trip o)) S1x50x1024.size (k0_off1_inb (trip o))).idx (ix3 0 k n)) = _
  refine congrArg x0 (funext fun a => Fin.ext ?_)
  match a with
  | ⟨0, _⟩ =>
    show (k0_off1 (trip o)) 0 + 1 * 0 = o.val
    rw [k0_off1_eq]; rfl
  | ⟨1, _⟩ =>
    show (k0_off1 (trip o)) 1 + 1 * k.val = k.val
    rw [k0_off1_eq]
    show 0 + 1 * k.val = k.val
    omega
  | ⟨2, _⟩ =>
    show (k0_off1 (trip o)) 2 + 1 * n.val = n.val
    rw [k0_off1_eq]
    show 0 + 1 * n.val = n.val
    omega

/-- The whole-shape load reads the operand. -/
theorem keys_eq (x1 : Vec F S1024x256 .f32) : keys x1 = x1 :=
  View.ld_unit_zero (S := S1024x256) hz2 inb_S1024x256_S1024x256_0_0 x1

/-- The query columns at grid point `p`: column `q` of the slice is column `128·p + q` of the matrix. -/
theorem qcols_apply (i : grid0.Coords) (p : Fin 2) (hp : (i 0).val = p.val) (w : Vec F S50x256 .f32) (k : Fin 50) (q : Fin 128) :
    qcols i w (ix2 k q) = w (ix2 k ⟨128 * p.val + q.val, by have := p.isLt; have := q.isLt; omega⟩) := by
  show w ((Rect.unit (s := S50x256) (k0_off2 i) S50x128.size (k0_off2_inb i)).idx (ix2 k q)) = _
  refine congrArg w (funext fun a => Fin.ext ?_)
  match a with
  | ⟨0, _⟩ =>
    show (k0_off2 i) 0 + 1 * k.val = k.val
    rw [k0_off2_eq]
    show 0 + 1 * k.val = k.val
    omega
  | ⟨1, _⟩ =>
    show (k0_off2 i) 1 + 1 * q.val = 128 * p.val + q.val
    rw [k0_off2_eq]
    show 128 * (i 0).val + 1 * q.val = 128 * p.val + q.val
    rw [hp]; omega

/-! ## The column at the extended reals -/

/-- The product of slab `o` and the second operand at `(k, b)`. -/
def prod (x0 : Vec Ideal S64x50x1024 .f32) (x1 : Vec Ideal S1024x256 .f32) (o : Fin 64) (k : Fin 50) (b : Fin 256) : EReal :=
  ∑ n : Fin 1024, x0 (ix3 o k n) * x1 (ix2 n b)

theorem pay1_apply (x0 : Vec Ideal S64x50x1024 .f32) (x1 : Vec Ideal S1024x256 .f32) (o : Fin 64) (k : Fin 50) (b : Fin 256) :
    k0_pay1 (F := Ideal) (slab x0 (trip o)) (keys x1) (ix2 k b) = prod x0 x1 o k b := by
  rw [k0_pay1_apply, keys_eq]
  exact Finset.sum_congr rfl fun n _ => by rw [slab_apply]

/-- Entry `(q, o)` of the block at grid point `p`. -/
theorem outBlk_apply (i : grid0.Coords) (p : Fin 2) (hp : (i 0).val = p.val)
    (x0 : Vec Ideal S64x50x1024 .f32) (x1 : Vec Ideal S1024x256 .f32) (q : Fin 128) (o : Fin 64) :
    outBlk (F := Ideal) i x0 x1 (ix2 q o)
      = (∑ b : Fin 256, Ideal.exp (-(∑ k : Fin 50, FloatOps.absf (F := Ideal) (φ := .f32)
          (prod x0 x1 o k ⟨128 * p.val + q.val, by have := p.isLt; have := q.isLt; omega⟩ - prod x0 x1 o k b))))
        - Ideal.ofBits .f32 0x3F800000#32 := by
  rw [outBlk_ix2]
  unfold colPay
  rw [k0_pay3_apply, k0_pay2_eq]
  refine congrArg (fun z : EReal => z - Ideal.ofBits .f32 0x3F800000#32) (Finset.sum_congr rfl fun b _ => ?_)
  refine congrArg (fun z : EReal => Ideal.exp (-z)) (Finset.sum_congr rfl fun k _ => ?_)
  rw [qcols_apply i p hp, pay1_apply, pay1_apply]

end Cert.KernelIdeal.Column

end
-- ==== Proof.Spec.lean ====
/-
  The function both programs compute, stated once and over no program.

  For a batch `x : [256, 1024]` and a tensor `T : [1024, 64·50]` put `M b o k = ∑ n, x b n · T n (50·o + k)`
  (the projection of row `b` onto kernel `k` of output feature `o`). The minibatch-discrimination feature of
  row `i` at output feature `o` is

      disc i o = (∑ j, exp (−∑ k, |M i o k − M j o k|)) − 1,

  the sum over all rows `j` of the batch of `exp` of minus the L1 distance between the two rows' projections,
  less the self term `exp 0 = 1`. Sums, products and differences are the extended reals' own; the literal `1`
  is kept as the word both programs print for it and is never evaluated.
-/
import Idealize.ShloMosaic.PureOps.Ideal
import Idealize.ShloMosaic.PureOps.Ideal.Laws
import Idealize.ShloMosaic.Lib.ValueIdx

noncomputable section

namespace Cert.Disc

open Idealize.ShloMosaic Idealize.ShloMosaic.ValueIdx

/-- Column `50·o + k` of `T`: kernel `k` of output feature `o`. -/
def col (o : Fin 64) (k : Fin 50) : Fin 3200 := ⟨o.val * 50 + k.val, by omega⟩

theorem col_val (o : Fin 64) (k : Fin 50) : (col o k).val = o.val * 50 + k.val := rfl

/-- `M b o k`: row `b` of `x` against column `50·o + k` of `T`. -/
def proj (x : FVec Ideal ⟨2, ![256, 1024]⟩ .f32) (T : FVec Ideal ⟨2, ![1024, 3200]⟩ .f32)
    (b : Fin 256) (o : Fin 64) (k : Fin 50) : EReal :=
  ∑ n : Fin 1024, x (ix2 b n) * T (ix2 n (col o k))

/-- The L1 distance between rows `i` and `j` at output feature `o`. -/
def dist (x : FVec Ideal ⟨2, ![256, 1024]⟩ .f32) (T : FVec Ideal ⟨2, ![1024, 3200]⟩ .f32)
    (i j : Fin 256) (o : Fin 64) : EReal :=
  ∑ k : Fin 50, FloatOps.absf (F := Ideal) (φ := .f32) (proj x T i o k - proj x T j o k)

/-- The discrimination feature of row `i` at output feature `o`. -/
def disc (x : FVec Ideal ⟨2, ![256, 1024]⟩ .f32) (T : FVec Ideal ⟨2, ![1024, 3200]⟩ .f32)
    (i : Fin 256) (o : Fin 64) : EReal :=
  (∑ j : Fin 256, Ideal.exp (-(dist x T i j o))) - Ideal.ofBits .f32 0x3F800000#32

/-- The same as an array `[256, 64]`. -/
def discArr (x : FVec Ideal ⟨2, ![256, 1024]⟩ .f32) (T : FVec Ideal ⟨2, ![1024, 3200]⟩ .f32) :
    FVec Ideal ⟨2, ![256, 64]⟩ .f32 :=
  fun y => disc x T (y 0) (y 1)

theorem discArr_ix2 (x : FVec Ideal ⟨2, ![256, 1024]⟩ .f32) (T : FVec Ideal ⟨2, ![1024, 3200]⟩ .f32)
    (i : Fin 256) (o : Fin 64) : discArr x T (ix2 i o) = disc x T i o := rfl

end Cert.Disc

end
-- ==== Proof.WholeIdeal.lean ====
/-
  The kernel's program as one function of its two arguments, at the extended reals.

  Before the region the host lays the arguments out: `T : [1024, 3200]` is read as `[1024, 64, 50]` and its axes
  permuted to `[64, 50, 1024]`, so entry `(o, k, n)` is `T (n, 50·o + k)`; `x : [256, 1024]` is transposed, so entry
  `(n, b)` is `x (b, n)`. Both are staged whole at either grid point. Hence the product the body forms for output
  feature `o` has at `(k, b)` the value `∑ n, T (n, 50·o + k) · x (b, n)`, which is the specification's projection
  `M b o k` by commutativity of the product — the only law used. Grid point `p` writes rows `128·p … 128·p + 127` of
  the result, the two blocks tile it, and the entry `(128·p + q, o)` it writes is the specification's `disc` there.
  After the region the host joins `x` and that result along the second axis.
-/
import proofs.«175558_j42073499631717_2_alg».proof.Proof.ColumnIdeal
import proofs.«175558_j42073499631717_2_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384
set_option maxHeartbeats 4000000

noncomputable section

namespace Cert.KernelIdeal.Whole

open Cert.KernelIdeal Cert.KernelIdeal.Gen Cert.KernelIdeal.Body Cert.KernelIdeal.Run Cert.KernelIdeal.Column
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-! ## The host's two layouts, read at an index -/

/-- `T` read as `[1024, 64, 50]` and permuted to `[64, 50, 1024]`: entry `(o, k, n)` is `T (n, 50·o + k)`. -/
theorem permuted_apply (xT : S1024x3200.Idx → EReal) (o : Fin 64) (k : Fin 50) (n : Fin 1024) :
    transpose S64x50x1024 [1, 2, 0] (shapeCast S1024x64x50 xT shapeCasts_S1024x3200_S1024x64x50)
        transposes_S1024x64x50_S64x50x1024_1_2_0 (ix3 o k n)
      = xT (ix2 n (Cert.Disc.col o k)) := by
  refine (transpose_apply _ (shapeCast S1024x64x50 xT shapeCasts_S1024x3200_S1024x64x50)
    transposes_S1024x64x50_S64x50x1024_1_2_0 (ix3 o k n) (ix3 n o k)
    (fun b => match b with | ⟨0, _⟩ => rfl | ⟨1, _⟩ => rfl | ⟨2, _⟩ => rfl)).trans ?_
  refine shapeCast_apply xT shapeCasts_S1024x3200_S1024x64x50 (ix3 n o k) (ix2 n (Cert.Disc.col o k)) ?_
  rw [Shape.rowMajor_val_two, Shape.rowMajor_val_three]
  show n.val * 3200 + (o.val * 50 + k.val) = (n.val * 64 + o.val) * 50 + k.val
  omega

/-- `x` transposed: entry `(n, b)` is `x (b, n)`. -/
theorem transposed_apply (xA : S256x1024.Idx → EReal) (n : Fin 1024) (b : Fin 256) :
    transpose S1024x256 [1, 0] xA transposes_S256x1024_S1024x256_1_0 (ix2 n b) = xA (ix2 b n) :=
  transpose_ix2_apply xA transposes_S256x1024_S1024x256_1_0 n b

/-- The product of slab `o` of the permuted `T` with the transposed `x` is the specification's projection. -/
theorem prod_eq_proj (xA : S256x1024.Idx → EReal) (xT : S1024x3200.Idx → EReal) (o : Fin 64) (k : Fin 50) (b : Fin 256) :
    Column.prod
        (transpose S64x50x1024 [1, 2, 0] (shapeCast S1024x64x50 xT shapeCasts_S1024x3200_S1024x64x50)
          transposes_S1024x64x50_S64x50x1024_1_2_0)
        (transpose S1024x256 [1, 0] xA transposes_S256x1024_S1024x256_1_0) o k b
      = Cert.Disc.proj xA xT b o k := by
  unfold Column.prod Cert.Disc.proj
  refine Finset.sum_congr rfl fun n _ => ?_
  rw [permuted_apply, transposed_apply, mul_comm]

/-- Entry `(q, o)` of the block grid point `p` writes is the specification's feature of row `128·p + q`. -/
theorem block_entry (i : grid0.Coords) (p : Fin 2) (hp : (i 0).val = p.val)
    (xA : S256x1024.Idx → EReal) (xT : S1024x3200.Idx → EReal) (q : Fin 128) (o : Fin 64) :
    outBlk (F := Ideal) i
        (transpose S64x50x1024 [1, 2, 0] (shapeCast S1024x64x50 xT shapeCasts_S1024x3200_S1024x64x50)
          transposes_S1024x64x50_S64x50x1024_1_2_0)
        (transpose S1024x256 [1, 0] xA transposes_S256x1024_S1024x256_1_0) (ix2 q o)
      = Cert.Disc.disc xA xT ⟨128 * p.val + q.val, by have := p.isLt; have := q.isLt; omega⟩ o := by
  rw [outBlk_apply i p hp]
  unfold Cert.Disc.disc Cert.Disc.dist
  refine congrArg (fun z : EReal => z - Ideal.ofBits .f32 0x3F800000#32) (Finset.sum_congr rfl fun b _ => ?_)
  refine congrArg (fun z : EReal => Ideal.exp (-z)) (Finset.sum_congr rfl fun k _ => ?_)
  rw [prod_eq_proj, prod_eq_proj]

/-! ## The arrays the region finds, and the blocks staged from them -/

/-- The first operand's array at the region's entry: `T` reshaped and permuted. -/
theorem V_permuted (c : Dev nD) :
    (V m c main_v1 : S64x50x1024.Idx → EReal)
      = transpose S64x50x1024 [1, 2, 0]
          (shapeCast S1024x64x50 (m ((c.tc : Thread nD τ).loc main_arg1)) shapeCasts_S1024x3200_S1024x64x50)
          transposes_S1024x64x50_S64x50x1024_1_2_0 := by
  show StableHlo.after hostOps0 (fun b => m (c, b)) (Proc.devRef .tc main_v1) = _
  after_results <;> rfl

/-- The second operand's array at the region's entry: `x` transposed. -/
theorem V_transposed (c : Dev nD) :
    (V m c main_v2 : S1024x256.Idx → EReal)
      = transpose S1024x256 [1, 0] (m ((c.tc : Thread nD τ).loc main_arg0)) transposes_S256x1024_S1024x256_1_0 := by
  show StableHlo.after hostOps0 (fun b => m (c, b)) (Proc.devRef .tc main_v2) = _
  after_results <;> rfl

/-- The index maps over the grid: the operands' blocks are their whole arrays at both points; the result's block at
    point `t` starts at row block `t`. -/
theorem idx_facts : ∀ t : Fin cfg0.N,
    win0_0.index t (0 : Fin 3) = 0 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = t.val ∧ win0_2.index t (1 : Fin 2) = 0
    ∧ ((grid0.coords t) 0).val = t.val :=
  (by decide +kernel : ∀ t : Fin grid0.N, _)

/-- The first operand's block at any point is its whole array. -/
theorem iblk0_eq (c : Dev nD) (t : Fin cfg0.N) : iblk m c 0 t = V m c main_v1 := by
  obtain ⟨e0, e1, e2, -⟩ := idx_facts t
  funext y
  show V m c main_v1 (((cfg0.win 0).blk t).view.emb y) = V m c main_v1 y
  refine congrArg (V m c main_v1) (funext fun a => Fin.ext ?_)
  match a with
  | ⟨0, _⟩ => show win0_0.index t (0 : Fin 3) * 64 + 1 * (y 0).val = (y 0).val; omega
  | ⟨1, _⟩ => show win0_0.index t (1 : Fin 3) * 50 + 1 * (y 1).val = (y 1).val; omega
  | ⟨2, _⟩ => show win0_0.index t (2 : Fin 3) * 1024 + 1 * (y 2).val = (y 2).val; omega

/-- The second operand's block at any point is its whole array. -/
theorem iblk1_eq (c : Dev nD) (t : Fin cfg0.N) : iblk m c 1 t = V m c main_v2 := by
  obtain ⟨-, -, -, e0, e1, -⟩ := idx_facts t
  funext y
  show V m c main_v2 (((cfg0.win 1).blk t).view.emb y) = V m c main_v2 y
  refine congrArg (V m c main_v2) (funext fun a => Fin.ext ?_)
  match a with
  | ⟨0, _⟩ => show win0_1.index t (0 : Fin 2) * 1024 + 1 * (y 0).val = (y 0).val; omega
  | ⟨1, _⟩ => show win0_1.index t (1 : Fin 2) * 256 + 1 * (y 1).val = (y 1).val; omega

/-! ## From the blocks to the array -/

/-- WHAT POINT `t` WRITES BACK is block `t` of the specification's array of the two arguments. -/
theorem flushed_eq (c : Dev nD) (t : Fin cfg0.N) :
    (dats m 0 c).flushed 2 t
      = ((cfg0.win 2).blk t).view.read (Elt Ideal)
          (Cert.Disc.discArr (m ((c.tc : Thread nD τ).loc main_arg0)) (m ((c.tc : Thread nD τ).loc main_arg1))) := by
  show (cfg0.win 2).cut (grid0.coords t) ((dats m 0 c).after 2 t) = _
  rw [after0_2, iblk0_eq, iblk1_eq, V_permuted, V_transposed]
  obtain ⟨-, -, -, -, -, e0, e1, ec⟩ := idx_facts t
  have hN : t.val < 2 := lt_of_lt_of_eq t.isLt N_0
  funext j
  obtain ⟨q, o, rfl⟩ : ∃ (q : Fin 128) (o : Fin 64), j = ix2 q o := ⟨j 0, j 1, eq_ix2 j⟩
  show outBlk (F := Ideal) (grid0.coords t) _ _ (ix2 q o)
    = Cert.Disc.discArr (m ((c.tc : Thread nD τ).loc main_arg0)) (m ((c.tc : Thread nD τ).loc main_arg1))
        (((cfg0.win 2).blk t).view.emb (ix2 q o))
  have he : ((cfg0.win 2).blk t).view.emb (ix2 q o)
      = ix2 (n0 := 256) (n1 := 64) ⟨128 * t.val + q.val, by have := q.isLt; omega⟩ o :=
    funext fun a => Fin.ext (by
      match a with
      | ⟨0, _⟩ => show win0_2.index t (0 : Fin 2) * 128 + 1 * q.val = 128 * t.val + q.val; omega
      | ⟨1, _⟩ => show win0_2.index t (1 : Fin 2) * 64 + 1 * o.val = o.val; omega)
  rw [he, Cert.Disc.discArr_ix2]
  exact block_entry (grid0.coords t) ⟨t.val, hN⟩ ec _ _ q o

/-- An index of the result is in point `t`'s block iff each coordinate is in the block's range on its axis. -/
theorem mem_blk (t : Fin cfg0.N) (i : S256x64.Idx) :
    i ∈ ((cfg0.win 2).blk t).view.set ↔ ∀ a : Fin 2, win0_2.index t a * S128x64.size a ≤ (i a).val
      ∧ (i a).val < win0_2.index t a * S128x64.size a + S128x64.size a := by
  show i ∈ ((View.whole main_v3).slice (win0_2.rect t)).set ↔ _
  rw [View.set_slice_whole, Rect.mem_set_unit]
  exact Iff.rfl

/-- The two blocks tile the result: row `r` is in the block of point `r / 128`. -/
theorem covered (i : S256x64.Idx) :
    ∃ t : Fin cfg0.N, (cfg0.win 2).flush t = true ∧ i ∈ ((cfg0.win 2).blk t).view.set := by
  have hi0 : (i 0).val < 256 := (i 0).isLt
  have hi1 : (i 1).val < 64 := (i 1).isLt
  have hN : cfg0.N = 2 := N_0
  let t : Fin cfg0.N := ⟨(i 0).val / 128, by rw [hN]; omega⟩
  obtain ⟨-, -, -, -, -, e0, e1, -⟩ := idx_facts t
  have ht : t.val = (i 0).val / 128 := rfl
  refine ⟨t, flush0_2 t, ?_⟩
  rw [mem_blk]
  intro a
  match a with
  | ⟨0, _⟩ =>
    show win0_2.index t (0 : Fin 2) * 128 ≤ (i 0).val ∧ (i 0).val < win0_2.index t (0 : Fin 2) * 128 + 128
    omega
  | ⟨1, _⟩ =>
    show win0_2.index t (1 : Fin 2) * 64 ≤ (i 1).val ∧ (i 1).val < win0_2.index t (1 : Fin 2) * 64 + 64
    omega

/-- THE RESULT ARRAY after the run: the specification's array of the two arguments. -/
theorem final (c : Dev nD) :
    (dats m 0 c).arrAt 2 cfg0.N
      = Cert.Disc.discArr (m ((c.tc : Thread nD τ).loc main_arg0)) (m ((c.tc : Thread nD τ).loc main_arg1)) :=
  (dats m 0 c).arrAt_eq_of_cover 2 _ (fun t _ => flushed_eq m c t) (fun i => covered i)

/-! ## The host's last line, and the run -/

/-- What the host's join leaves in the program's result: `x` beside the specification's array. -/
theorem tail_eq (c : Dev nD) :
    Pipeline.afterTail₀ cfgs (dats m) 0 (V0 m) [hostOps1] c main_v4
      = concatenate S256x1088 1
          [⟨S256x1024, m ((c.tc : Thread nD τ).loc main_arg0)⟩,
           ⟨S256x64, Cert.Disc.discArr (m ((c.tc : Thread nD τ).loc main_arg0)) (m ((c.tc : Thread nD τ).loc main_arg1))⟩]
          concatenates_S256x1024_S256x64_S256x1088_d1 := by
  unfold Pipeline.afterTail₀
  show StableHlo.after hostOps1 _ (Proc.devRef .tc main_v4) = _
  after_results
  rw [Pipeline.withArrays_of_ne _ c (V0 m c) _ main_arg0 (by exact (by decide : ∀ w, Pipeline.arrRef spec0 w ≠ main_arg0)),
    Pipeline.withArrays_arr spec0 launch0.win.arr_inj c (V0 m c) _ 2, final]
  exact congrArg (fun a => concatenate S256x1088 1
      [⟨S256x1024, a⟩,
       ⟨S256x64, Cert.Disc.discArr (m ((c.tc : Thread nD τ).loc main_arg0)) (m ((c.tc : Thread nD τ).loc main_arg1))⟩]
      concatenates_S256x1024_S256x64_S256x1088_d1) (V_main_arg0 m c)

/-- The run re-posted: the program's result is `x` beside the specification's array, the arguments are unchanged. -/
theorem run : θ_run defs (onTc (τ := τ) (main (F := Ideal))) ⟨m, fun _ => 0, ρ⟩ fun r => ∀ c : Dev nD,
      r.2.mem ((c.tc : Thread nD τ).loc main_v4)
        = concatenate S256x1088 1
            [⟨S256x1024, m ((c.tc : Thread nD τ).loc main_arg0)⟩,
             ⟨S256x64, Cert.Disc.discArr (m ((c.tc : Thread nD τ).loc main_arg0)) (m ((c.tc : Thread nD τ).loc main_arg1))⟩]
            concatenates_S256x1024_S256x64_S256x1088_d1
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v4 (Pipeline.mem_restRefs_of main_v4 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Whole

end
-- ==== Proof.RefDisc.lean ====
/-
  The reference's discrimination feature is the specification's.

  The reference forms the product `x @ T : [256, 3200]`, reads it as `[256, 64, 50]` (entry `(b, o, k)` is column
  `50·o + k` of row `b`), broadcasts it once along a new second axis and once along a new first axis, and so obtains
  at `(i, j, o, k)` the two projections `M i o k` and `M j o k`. It then sums `|M i o k − M j o k|` over `k` from the
  word of `0`, negates, exponentiates, sums over `j` from the word of `0` and subtracts the word of `1`. Each index
  function the reading composes is identified below with the plain coordinates; the two zero words vanish by
  `0 + a = a`; what is left is the specification's `disc` term for term.
-/
import proofs.«175558_j42073499631717_2_alg».proof.Proof.Gen.ReferenceIdeal.Read
import proofs.«175558_j42073499631717_2_alg».proof.Proof.Spec

noncomputable section

namespace Cert.ReferenceIdeal.RefValue

open Cert.ReferenceIdeal Cert.ReferenceIdeal.Read Idealize.ShloMosaic Idealize.ShloMosaic.ValueIdx

/-! ## The composed index functions, at plain coordinates -/

/-- Summing over rows `j`: the summand of output `(i, o)` sits at `(i, j, o)`. -/
theorem idx11 (i : Fin 256) (o : Fin 64) (j : Fin 256) : idx_main_v11 (ix2 i o) j = ix3 i j o :=
  funext fun a => Fin.ext (by match a with | ⟨0, _⟩ => rfl | ⟨1, _⟩ => rfl | ⟨2, _⟩ => rfl)

/-- Summing over kernels `k`: the summand of `(i, j, o)` sits at `(i, j, o, k)`. -/
theorem idx8 (i j : Fin 256) (o : Fin 64) (k : Fin 50) : idx_main_v8 (ix3 i j o) k = ix4 i j o k :=
  funext fun a => Fin.ext (by match a with | ⟨0, _⟩ => rfl | ⟨1, _⟩ => rfl | ⟨2, _⟩ => rfl | ⟨3, _⟩ => rfl)

/-- The broadcast along a new second axis reads row `i`. -/
theorem idx24 (i j : Fin 256) (o : Fin 64) (k : Fin 50) : idx_main_v2 (idx_main_v4 (ix4 i j o k)) = ix3 i o k :=
  funext fun a => Fin.ext (by match a with | ⟨0, _⟩ => rfl | ⟨1, _⟩ => rfl | ⟨2, _⟩ => rfl)

/-- The broadcast along a new first axis reads row `j`. -/
theorem idx35 (i j : Fin 256) (o : Fin 64) (k : Fin 50) : idx_main_v3 (idx_main_v5 (ix4 i j o k)) = ix3 j o k :=
  funext fun a => Fin.ext (by match a with | ⟨0, _⟩ => rfl | ⟨1, _⟩ => rfl | ⟨2, _⟩ => rfl)

/-- Entry `(b, o, k)` of the reshaped product is entry `(b, 50·o + k)` of the product: row-major positions agree,
    `(64·b + o)·50 + k = 3200·b + (50·o + k)` with `50·o + k < 3200`. -/
theorem idx1 (b : Fin 256) (o : Fin 64) (k : Fin 50) : idx_main_v1 (ix3 b o k) = ix2 b (Cert.Disc.col o k) :=
  funext fun a => Fin.ext (by
    have hb := b.isLt; have ho := o.isLt; have hk := k.isLt
    match a with
    | ⟨0, _⟩ => show ((b.val * 64 + o.val) * 50 + k.val) / 3200 = b.val; omega
    | ⟨1, _⟩ => show ((b.val * 64 + o.val) * 50 + k.val) % 3200 = o.val * 50 + k.val; omega)

/-- The product's entry `(b, c)` takes row `b` of the left factor. -/
theorem lidx0 (b : Fin 256) (c : Fin 3200) (n : Fin 1024) : lidx_main_v0 (ix2 b c) n = ix2 b n :=
  funext fun a => Fin.ext (by match a with | ⟨0, _⟩ => rfl | ⟨1, _⟩ => rfl)

/-- The product's entry `(b, c)` takes column `c` of the right factor. -/
theorem ridx0 (b : Fin 256) (c : Fin 3200) (n : Fin 1024) : ridx_main_v0 (ix2 b c) n = ix2 n c :=
  funext fun a => Fin.ext (by match a with | ⟨0, _⟩ => rfl | ⟨1, _⟩ => rfl)

/-! ## The value -/

/-- At output `(i, o)` the reference's value is `disc i o`. -/
theorem val_main_v13_ix2 (x0 : (⟨S256x1024, .f32⟩ : BufTy).Contents (Elt Ideal)) (x1 : (⟨S1024x3200, .f32⟩ : BufTy).Contents (Elt Ideal))
    (i : Fin 256) (o : Fin 64) :
    val_main_v13 (F := Ideal) x0 x1 (ix2 i o) = Cert.Disc.disc x0 x1 i o := by
  simp only [val_main_v13_apply, val_main_v12_apply, val_main_cst_1_apply, val_main_v11_apply, val_main_cst_0_apply,
    val_main_v10_apply, val_main_v9_apply, val_main_v8_apply, val_main_cst_apply, val_main_v7_apply, val_main_v6_apply,
    val_main_v4_apply, val_main_v5_apply, val_main_v2_apply, val_main_v3_apply, val_main_v1_apply, val_main_v0_apply,
    idx11, idx8, idx24, idx35, idx1, lidx0, ridx0,
    Ideal.ofBits_def, Ideal.subf_def, Ideal.hostNegf_def, Ideal.negf_def, Ideal.hostAbsf_def, Ideal.hostUnary_exp_def,
    Ideal.ofBits_zero_f32, zero_add]
  rfl

/-- The reference's discrimination block is the specification's array. -/
theorem val_main_v13_eq (x0 : (⟨S256x1024, .f32⟩ : BufTy).Contents (Elt Ideal)) (x1 : (⟨S1024x3200, .f32⟩ : BufTy).Contents (Elt Ideal)) :
    Cert.ReferenceIdeal.Read.val_main_v13 (F := Ideal) x0 x1 = Cert.Disc.discArr x0 x1 := by
  funext y
  rw [eq_ix2 y]
  exact (val_main_v13_ix2 x0 x1 (y 0) (y 1)).trans (Cert.Disc.discArr_ix2 x0 x1 (y 0) (y 1)).symm

end Cert.ReferenceIdeal.RefValue

end
-- ==== Proof.lean ====
/-
  The certificate's five claims.

  Both programs compute, for a batch `x : [256, 1024]` and a tensor `T : [1024, 3200]`, the array `x` joined along
  the second axis with the minibatch-discrimination features `disc i o = (∑ j, exp (−∑ k, |M i o k − M j o k|)) − 1`,
  `M = (x · T)` read as `[256, 64, 50]` (Proof/Spec.lean). The reference does it with one product and broadcasts
  (Proof/RefDisc.lean). The kernel permutes `T` and transposes `x` on the host, then at each of two grid points runs
  a loop over the 64 output features: a `[50, 1024] × [1024, 256]` product per feature, kept in a scratch buffer
  from which the point's 128 query columns are read back, the distances, the exponentials and the row sums, one
  result column per trip (Proof/BodyIdeal.lean, Proof/RunIdeal.lean for the run; Proof/PayloadAt.lean,
  Proof/ColumnIdeal.lean, Proof/WholeIdeal.lean for what it computes). The two agree by commutativity of the
  product under the sum; no finiteness of the inputs is used. The word-level program's frame is the same run at
  the word-level instance (Proof/BodyBits.lean, Proof/RunBits.lean); the idealization rewrote nothing.
-/
import proofs.«175558_j42073499631717_2_alg».proof.Defs
import proofs.«175558_j42073499631717_2_alg».proof.Proof.Gen.Kernel
import proofs.«175558_j42073499631717_2_alg».proof.Proof.Gen.KernelIdeal
import proofs.«175558_j42073499631717_2_alg».proof.Proof.Gen.ReferenceIdeal
import proofs.«175558_j42073499631717_2_alg».proof.Proof.Gen.ReferenceIdeal.Run
import proofs.«175558_j42073499631717_2_alg».proof.Proof.Gen.ReferenceIdeal.Read
import proofs.«175558_j42073499631717_2_alg».proof.Proof.Gen.Pre_finite_inputs
import proofs.«175558_j42073499631717_2_alg».proof.Proof.RunBits
import proofs.«175558_j42073499631717_2_alg».proof.Proof.WholeIdeal
import proofs.«175558_j42073499631717_2_alg».proof.Proof.RefDisc
import Idealize.ShloMosaic.Adequacy
import Idealize.ShloMosaic.Init

noncomputable section

namespace Cert.Proof

open Idealize.ShloMosaic Idealize.SL.Sem

/-- The word-level program runs and leaves its arguments as launched. -/
theorem frame_p : Cert.frame_Kernel := fun m ρ _ => Cert.Kernel.Run.frame m ρ

/-- So does the idealized program. -/
theorem frame_pi : Cert.frame_KernelIdeal := fun m ρ _ => Cert.KernelIdeal.Run.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on `x` and `T` both programs end at `x` joined with the specification's array: the
    kernel by its run read back (Proof/WholeIdeal.lean), the reference by its run and the reading of its last stage
    but one (Proof/RefDisc.lean); the join is the same operation on both sides and is never opened. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq]
  unfold Cert.ReferenceIdeal.Read.val_main_v14
  rw [Cert.ReferenceIdeal.RefValue.val_main_v13_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
